-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S32x640 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x617 : Shape := ⟨2, ![32, 617]⟩
abbrev S617x10000 : Shape := ⟨2, ![617, 10000]⟩
abbrev S100x10000 : Shape := ⟨2, ![100, 10000]⟩
abbrev S26x10000 : Shape := ⟨2, ![26, 10000]⟩
abbrev S_ : Shape := ⟨0, ![]⟩

class Facts : Prop where
  bcast_S_S32x617 : S_.BroadcastsInDim S32x617 (![] : Fin 0 → Fin S32x617.rank)
  reducesTo_S32x617_S_d0_1 : S32x617.ReducesTo [0, 1] S_
  h_S_ : 0 < S_.numel
  bcast_S_S617x10000 : S_.BroadcastsInDim S617x10000 (![] : Fin 0 → Fin S617x10000.rank)
  reducesTo_S617x10000_S_d0_1 : S617x10000.ReducesTo [0, 1] S_
  bcast_S_S100x10000 : S_.BroadcastsInDim S100x10000 (![] : Fin 0 → Fin S100x10000.rank)
  reducesTo_S100x10000_S_d0_1 : S100x10000.ReducesTo [0, 1] S_
  bcast_S_S26x10000 : S_.BroadcastsInDim S26x10000 (![] : Fin 0 → Fin S26x10000.rank)
  reducesTo_S26x10000_S_d0_1 : S26x10000.ReducesTo [0, 1] S_

variable [Facts]

def fn_part1 {F : FTy → Type} [FloatOps F] (main_v13 : IVec S_ 1) (main_v16 : IVec S26x10000 1) : IVec S_ 1 :=
  let main_c_5 : IVec S_ 1 := constantI S_ 1 1#1
  let main_v17 : IVec S_ 1 := (fun x v => Host.reduce IntOp.andi x v reducesTo_S26x10000_S_d0_1 h_S_) main_v16 main_c_5
  let main_v18 : IVec S_ 1 := andi main_v13 main_v17
  main_v18

def fn {F : FTy → Type} [FloatOps F] (main_arg0 : FVec F S32x617 .f32) (main_arg1 : FVec F S617x10000 .f32) (main_arg2 : FVec F S100x10000 .f32) (main_arg3 : FVec F S26x10000 .f32) : IVec S_ 1 :=
  let main_v0 : FVec F S32x617 .f32 := Host.absf main_arg0
  let main_cst : FVec F S_ .f32 := constant S_ .f32 0x7F800000#32
  let main_v1 : FVec F S32x617 .f32 := broadcastInDim S32x617 ![] bcast_S_S32x617 main_cst
  let main_v2 : IVec S32x617 1 := cmpf .olt main_v0 main_v1
  let main_c : IVec S_ 1 := constantI S_ 1 1#1
  let main_v3 : IVec S_ 1 := (fun x v => Host.reduce IntOp.andi x v reducesTo_S32x617_S_d0_1 h_S_) main_v2 main_c
  let main_v4 : FVec F S617x10000 .f32 := Host.absf main_arg1
  let main_cst_0 : FVec F S_ .f32 := constant S_ .f32 0x7F800000#32
  let main_v5 : FVec F S617x10000 .f32 := broadcastInDim S617x10000 ![] bcast_S_S617x10000 main_cst_0
  let main_v6 : IVec S617x10000 1 := cmpf .olt main_v4 main_v5
  let main_c_1 : IVec S_ 1 := constantI S_ 1 1#1
  let main_v7 : IVec S_ 1 := (fun x v => Host.reduce IntOp.andi x v reducesTo_S617x10000_S_d0_1 h_S_) main_v6 main_c_1
  let main_v8 : IVec S_ 1 := andi main_v3 main_v7
  let main_v9 : FVec F S100x10000 .f32 := Host.absf main_arg2
  let main_cst_2 : FVec F S_ .f32 := constant S_ .f32 0x7F800000#32
  let main_v10 : FVec F S100x10000 .f32 := broadcastInDim S100x10000 ![] bcast_S_S100x10000 main_cst_2
  let main_v11 : IVec S100x10000 1 := cmpf .olt main_v9 main_v10
  let main_c_3 : IVec S_ 1 := constantI S_ 1 1#1
  let main_v12 : IVec S_ 1 := (fun x v => Host.reduce IntOp.andi x v reducesTo_S100x10000_S_d0_1 h_S_) main_v11 main_c_3
  let main_v13 : IVec S_ 1 := andi main_v8 main_v12
  let main_v14 : FVec F S26x10000 .f32 := Host.absf main_arg3
  let main_cst_4 : FVec F S_ .f32 := constant S_ .f32 0x7F800000#32
  let main_v15 : FVec F S26x10000 .f32 := broadcastInDim S26x10000 ![] bcast_S_S26x10000 main_cst_4
  let main_v16 : IVec S26x10000 1 := cmpf .olt main_v14 main_v15
  fn_part1 (F := F) main_v13 main_v16
-- ==== Kernel.lean ====
abbrev S32x617 : Shape := ⟨2, ![32, 617]⟩
abbrev S617x10000 : Shape := ⟨2, ![617, 10000]⟩
abbrev S100x10000 : Shape := ⟨2, ![100, 10000]⟩
abbrev S26x10000 : Shape := ⟨2, ![26, 10000]⟩
abbrev S_ : Shape := ⟨0, ![]⟩
abbrev S32x640 : Shape := ⟨2, ![32, 640]⟩
abbrev S640x10240 : Shape := ⟨2, ![640, 10240]⟩
abbrev S128x10240 : Shape := ⟨2, ![128, 10240]⟩
abbrev S16x32x128 : Shape := ⟨3, ![16, 32, 128]⟩
abbrev S640x640 : Shape := ⟨2, ![640, 640]⟩
abbrev S128x640 : Shape := ⟨2, ![128, 640]⟩
abbrev S1x32x128 : Shape := ⟨3, ![1, 32, 128]⟩
abbrev S32x128 : Shape := ⟨2, ![32, 128]⟩
abbrev S32x128x128 : Shape := ⟨3, ![32, 128, 128]⟩
abbrev S32x128x1 : Shape := ⟨3, ![32, 128, 1]⟩
abbrev S4096x128 : Shape := ⟨2, ![4096, 128]⟩
abbrev S4096x640 : Shape := ⟨2, ![4096, 640]⟩
abbrev S32x128x640 : Shape := ⟨3, ![32, 128, 640]⟩
abbrev S1x128x640 : Shape := ⟨3, ![1, 128, 640]⟩
abbrev S32x26 : Shape := ⟨2, ![32, 26]⟩

abbrev nBuf : Space → Nat
  | .hbm => 36
  | .vmem => 9
  | .smem => 0
  | _ => 0

abbrev bufTy : (tb : Table) → Fin (tcTables nBuf tb) → BufTy
  | .hbm, ⟨0, _⟩ => ⟨S32x617, .f32⟩
  | .hbm, ⟨1, _⟩ => ⟨S617x10000, .f32⟩
  | .hbm, ⟨2, _⟩ => ⟨S100x10000, .f32⟩
  | .hbm, ⟨3, _⟩ => ⟨S26x10000, .f32⟩
  | .hbm, ⟨4, _⟩ => ⟨S_, .f32⟩
  | .hbm, ⟨5, _⟩ => ⟨S32x617, .f32⟩
  | .hbm, ⟨6, _⟩ => ⟨S32x617, .f32⟩
  | .hbm, ⟨7, _⟩ => ⟨S32x617, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S32x617, .f32⟩
  | .hbm, ⟨12, _⟩ => ⟨S32x617, .f32⟩
  | .hbm, ⟨13, _⟩ => ⟨S_, .f32⟩
  | .hbm, ⟨14, _⟩ => ⟨S32x617, .f32⟩
  | .hbm, ⟨15, _⟩ => ⟨S32x617, .f32⟩
  | .hbm, ⟨16, _⟩ => ⟨S32x617, .i32⟩
  | .hbm, ⟨17, _⟩ => ⟨S_, .i32⟩
  | .hbm, ⟨18, _⟩ => ⟨S_, .i32⟩
  | .hbm, ⟨19, _⟩ => ⟨S32x640, .i32⟩
  | .hbm, ⟨20, _⟩ => ⟨S_, .i32⟩
  | .hbm, ⟨21, _⟩ => ⟨S_, .f32⟩
  | .hbm, ⟨22, _⟩ => ⟨S640x10240, .f32⟩
  | .hbm, ⟨23, _⟩ => ⟨S640x10240, .bf16⟩
  | .hbm, ⟨24, _⟩ => ⟨S_, .i32⟩
  | .hbm, ⟨25, _⟩ => ⟨S_, .f32⟩
  | .hbm, ⟨26, _⟩ => ⟨S128x10240, .f32⟩
  | .hbm, ⟨27, _⟩ => ⟨S128x10240, .bf16⟩
  | .hbm, ⟨28, _⟩ => ⟨S_, .i32⟩
  | .hbm, ⟨29, _⟩ => ⟨S_, .f32⟩
  | .hbm, ⟨30, _⟩ => ⟨S128x10240, .f32⟩
  | .hbm, ⟨31, _⟩ => ⟨S128x10240, .bf16⟩
  | .hbm, ⟨32, _⟩ => ⟨S16x32x128, .f32⟩
  | .hbm, ⟨33, _⟩ => ⟨S_, .f32⟩
  | .hbm, ⟨34, _⟩ => ⟨S32x128, .f32⟩
  | .hbm, ⟨35, _⟩ => ⟨S32x26, .f32⟩
  | .local _ .vmem, ⟨0, _⟩ => ⟨S32x640, .i32⟩
  | .local _ .vmem, ⟨1, _⟩ => ⟨S640x640, .bf16⟩
  | .local _ .vmem, ⟨2, _⟩ => ⟨S640x640, .bf16⟩
  | .local _ .vmem, ⟨3, _⟩ => ⟨S128x640, .bf16⟩
  | .local _ .vmem, ⟨4, _⟩ => ⟨S128x640, .bf16⟩
  | .local _ .vmem, ⟨5, _⟩ => ⟨S128x640, .bf16⟩
  | .local _ .vmem, ⟨6, _⟩ => ⟨S128x640, .bf16⟩
  | .local _ .vmem, ⟨7, _⟩ => ⟨S1x32x128, .f32⟩
  | .local _ .vmem, ⟨8, _⟩ => ⟨S1x32x128, .f32⟩
  | _, _ => ⟨S32x617, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_c_2 : Ref sig .tc := ⟨.hbm, 20, rfl⟩
abbrev main_call3_v0 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_call4_v0 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_call5_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_5 : Ref sig .tc := ⟨.hbm, 33, rfl⟩
abbrev main_v13 : Ref sig .tc := ⟨.hbm, 34, rfl⟩
abbrev main_v14 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c5_i32 : BitVec 32 := 5#32
  let v1 : BitVec 32 := Scalar.addi c0_i32 c5_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v15 : BitVec 32 := Scalar.muli arg6 c128_i32
  v15
def k0_off1 (k0_t1 : Fin k0_t1_loop.trips) : Fin 2 → Nat :=
  let c0_9 : Index := 0#32
  let c0_i32 : BitVec 32 := 0#32
  let c1_i32 : BitVec 32 := 1#32
  let arg6 : BitVec 32 := Scf.iv c0_i32 c1_i32 k0_t1
  let c128_i32 : BitVec 32 := 128#32
  let v15 : BitVec 32 := Scalar.muli arg6 c128_i32
  let v16 : BitVec 32 := v15
  let v17 : Index := Scalar.indexCast v16
  ![0, v17.toNat]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v15 : BitVec 32 := Scalar.muli arg6 c128_i32
  let v16 : BitVec 32 := v15
  let v33 : Index := Scalar.indexCast v16
  let c0_13 : Index := 0#32
  ![v33.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32x617 : S_.BroadcastsInDim S32x617 (![] : Fin 0 → Fin S32x617.rank)
  pads_S32x617_S32x640_000_0230 : S32x617.Pads (![0, 0] : Fin 2 → Nat) ![0, 23] ![0, 0] S32x640
  h_S_ : 0 < S_.numel
  pads_S617x10000_S640x10240_0230_02400 : S617x10000.Pads (![0, 0] : Fin 2 → Nat) ![23, 240] ![0, 0] S640x10240
  bitsLt_bf16_f32 : FTy.bits .bf16 < FTy.bits .f32
  pads_S100x10000_S128x10240_0280_02400 : S100x10000.Pads (![0, 0] : Fin 2 → Nat) ![28, 240] ![0, 0] S128x10240
  pads_S26x10000_S128x10240_01020_02400 : S26x10000.Pads (![0, 0] : Fin 2 → Nat) ![102, 240] ![0, 0] S128x10240
  h_S32x128 : 0 < S32x128.numel
  shapeCasts_S32x128_S32x128 : S32x128.ShapeCasts S32x128
  iota_S32x128x128_d2_w32 : S32x128x128.Iotas .tc 32 [2]
  shapeCasts_S32x128_S32x128x1 : S32x128.ShapeCasts S32x128x1
  broadcasts_S32x128x1_S32x128x128 : S32x128x1.Broadcasts S32x128x128
  natLt_1_32 : 1 < 32
  shapeCasts_S32x128x128_S4096x128 : S32x128x128.ShapeCasts S4096x128
  inb_S128x640_S128x640_0_0 : ∀ a, (![0, 0] : Fin 2 → Nat) a + S128x640.size a ≤ S128x640.size a
  h_S128x640 : 0 < S128x640.numel
  shapeCasts_S128x640_S128x640 : S128x640.ShapeCasts S128x640
  shapeCasts_S4096x640_S32x128x640 : S4096x640.ShapeCasts S32x128x640
  shapeCasts_S128x640_S1x128x640 : S128x640.ShapeCasts S1x128x640
  broadcasts_S1x128x640_S32x128x640 : S1x128x640.Broadcasts S32x128x640
  reduces_S32x128x640_S32x640 : S32x128x640.Reduces [1] S32x640
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  reducesTo_S16x32x128_S32x128_d0 : S16x32x128.ReducesTo [0] S32x128
  slices_S32x128_S32x26_0_0 : S32x128.Slices ![0, 0] S32x26
  dot_S4096x128_S128x640_S4096x640_1_0_0_1_n_n_wf : DotDims.WF S4096x128 S128x640 S4096x640 [1] [0] [0] [1] [] []
  dot_S32x640_S128x640_S32x128_1_1_0_0_n_n_wf : DotDims.WF S32x640 S128x640 S32x128 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S32x128.size a ≤ S32x640.size a
  k0_off2_inb : ∀ k0_t1 : Fin k0_t1_loop.trips, ∀ a, (k0_off2 k0_t1) a + S128x640.size a ≤ S640x640.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x640.size a ≤ S32x640.size a
  hwx0_0 : ∀ i : grid0.Coords, EltTy.bits .i32 = 32 ∨ (Rect.block (s := S32x640) S32x640.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x10240.size a
  hwx0_1 : ∀ i : grid0.Coords, EltTy.bits .bf16 = 32 ∨ (Rect.block (s := S640x10240) S640x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x640.size a ≤ S128x10240.size a
  hwx0_2 : ∀ i : grid0.Coords, EltTy.bits .bf16 = 32 ∨ (Rect.block (s := S128x10240) S128x640.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x640.size a ≤ S128x10240.size a
  hwx0_3 : ∀ i : grid0.Coords, EltTy.bits .bf16 = 32 ∨ (Rect.block (s := S128x10240) S128x640.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128.size a ≤ S16x32x128.size a
  hwx0_4 : ∀ i : grid0.Coords, EltTy.bits .f32 = 32 ∨ (Rect.block (s := S16x32x128) S1x32x128.size (cc0_transform_4 i) (hinb0_4 i)).WholeWords (EltTy.packing .f32)

variable [Facts₀]

def dot_S4096x128_S128x640_S4096x640_1_0_0_1_n_n : DotDims S4096x128 S128x640 S4096x640 where
  lhsContracting := [1]
  rhsContracting := [0]
  lhsNonContracting := [0]
  rhsNonContracting := [1]
  lhsBatch := []
  rhsBatch := []
  wf := dot_S4096x128_S128x640_S4096x640_1_0_0_1_n_n_wf
def dot_S32x640_S128x640_S32x128_1_1_0_0_n_n : DotDims S32x640 S128x640 S32x128 where
  lhsContracting := [1]
  rhsContracting := [1]
  lhsNonContracting := [0]
  rhsNonContracting := [0]
  lhsBatch := []
  rhsBatch := []
  wf := dot_S32x640_S128x640_S32x128_1_1_0_0_n_n_wf

abbrev win0_0 : Pipeline.Window sig grid0 :=
  Pipeline.Window.ofSpec (Memref.whole main_v5) S32x640.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S640x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x617 : Shape := ⟨2, ![32, 617]⟩
abbrev S617x10000 : Shape := ⟨2, ![617, 10000]⟩
abbrev S100x10000 : Shape := ⟨2, ![100, 10000]⟩
abbrev S26x10000 : Shape := ⟨2, ![26, 10000]⟩
abbrev S_ : Shape := ⟨0, ![]⟩
abbrev S32x617x1 : Shape := ⟨3, ![32, 617, 1]⟩
abbrev S32x617x10000 : Shape := ⟨3, ![32, 617, 10000]⟩
abbrev S1x617x10000 : Shape := ⟨3, ![1, 617, 10000]⟩
abbrev S32x10000 : Shape := ⟨2, ![32, 10000]⟩
abbrev S32x26 : Shape := ⟨2, ![32, 26]⟩

abbrev nBuf : Space → Nat
  | .hbm => 40
  | .vmem => 0
  | .smem => 0
  | _ => 0

abbrev bufTy : (tb : Table) → Fin (tcTables nBuf tb) → BufTy
  | .hbm, ⟨0, _⟩ => ⟨S32x617, .f32⟩
  | .hbm, ⟨1, _⟩ => ⟨S617x10000, .f32⟩
  | .hbm, ⟨2, _⟩ => ⟨S100x10000, .f32⟩
  | .hbm, ⟨3, _⟩ => ⟨S26x10000, .f32⟩
  | .hbm, ⟨4, _⟩ => ⟨S_, .f32⟩
  | .hbm, ⟨5, _⟩ => ⟨S32x617, .f32⟩
  | .hbm, ⟨6, _⟩ => ⟨S32x617, .f32⟩
  | .hbm, ⟨7, _⟩ => ⟨S32x617, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S32x617, .f32⟩
  | .hbm, ⟨12, _⟩ => ⟨S32x617, .f32⟩
  | .hbm, ⟨13, _⟩ => ⟨S_, .f32⟩
  | .hbm, ⟨14, _⟩ => ⟨S32x617, .f32⟩
  | .hbm, ⟨15, _⟩ => ⟨S32x617, .f32⟩
  | .hbm, ⟨16, _⟩ => ⟨S32x617, .i32⟩
  | .hbm, ⟨17, _⟩ => ⟨S_, .i32⟩
  | .hbm, ⟨18, _⟩ => ⟨S32x617, .i32⟩
  | .hbm, ⟨19, _⟩ => ⟨S32x617, .i1⟩
  | .hbm, ⟨20, _⟩ => ⟨S_, .i32⟩
  | .hbm, ⟨21, _⟩ => ⟨S32x617, .i32⟩
  | .hbm, ⟨22, _⟩ => ⟨S32x617, .i32⟩
  | .hbm, ⟨23, _⟩ => ⟨S32x617, .i32⟩
  | .hbm, ⟨24, _⟩ => ⟨S32x617x1, .i32⟩
  | .hbm, ⟨25, _⟩ => ⟨S32x617x10000, .f32⟩
  | .hbm, ⟨26, _⟩ => ⟨S1x617x10000, .f32⟩
  | .hbm, ⟨27, _⟩ => ⟨S32x617x10000, .f32⟩
  | .hbm, ⟨28, _⟩ => ⟨S32x617x10000, .f32⟩
  | .hbm, ⟨29, _⟩ => ⟨S_, .f32⟩
  | .hbm, ⟨30, _⟩ => ⟨S32x10000, .f32⟩
  | .hbm, ⟨31, _⟩ => ⟨S_, .f32⟩
  | .hbm, ⟨32, _⟩ => ⟨S32x10000, .f32⟩
  | .hbm, ⟨33, _⟩ => ⟨S32x10000, .i1⟩
  | .hbm, ⟨34, _⟩ => ⟨S_, .f32⟩
  | .hbm, ⟨35, _⟩ => ⟨S_, .f32⟩
  | .hbm, ⟨36, _⟩ => ⟨S32x10000, .f32⟩
  | .hbm, ⟨37, _⟩ => ⟨S32x10000, .f32⟩
  | .hbm, ⟨38, _⟩ => ⟨S32x10000, .f32⟩
  | .hbm, ⟨39, _⟩ => ⟨S32x26, .f32⟩
  | _, _ => ⟨S32x617, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]

class Facts₀ : Prop where
  bcast_S_S32x617 : S_.BroadcastsInDim S32x617 (![] : Fin 0 → Fin S32x617.rank)
  bcast_S32x617_S32x617x1_0_1 : S32x617.BroadcastsInDim S32x617x1 (![0, 1] : Fin 2 → Fin S32x617x1.rank)
  bcast_S617x10000_S1x617x10000_1_2 : S617x10000.BroadcastsInDim S1x617x10000 (![1, 2] : Fin 2 → Fin S1x617x10000.rank)
  bcast_S1x617x10000_S32x617x10000_0_1_2 : S1x617x10000.BroadcastsInDim S32x617x10000 (![0, 1, 2] : Fin 3 → Fin S32x617x10000.rank)
  reducesTo_S32x617x10000_S32x10000_d1 : S32x617x10000.ReducesTo [1] S32x10000
  h_S_ : 0 < S_.numel
  bcast_S_S32x10000 : S_.BroadcastsInDim S32x10000 (![] : Fin 0 → Fin S32x10000.rank)
  gather_S100x10000_S32x617x1_S32x617x10000_2_0_n_n_0_2_110000_wf : GatherDims.WF S100x10000 S32x617x1 S32x617x10000 [2] [0] [] [0] [] 2 ![1, 10000]
  dot_S32x10000_S26x10000_S32x26_1_1_0_0_n_n_wf : DotDims.WF S32x10000 S26x10000 S32x26 [1] [1] [0] [0] [] []

variable [Facts₀]

def gather_S100x10000_S32x617x1_S32x617x10000_2_0_n_n_0_2_110000 : GatherDims S100x10000 S32x617x1 S32x617x10000 where
  offsetDims := [2]
  collapsedSliceDims := [0]
  operandBatchingDims := []
  startIndicesBatchingDims := []
  startIndexMap := [0]
  indexVectorDim := 2
  sliceSizes := ![1, 10000]
  wf := gather_S100x10000_S32x617x1_S32x617x10000_2_0_n_n_0_2_110000_wf
def dot_S32x10000_S26x10000_S32x26_1_1_0_0_n_n : DotDims S32x10000 S26x10000 S32x26 where
  lhsContracting := [1]
  rhsContracting := [1]
  lhsNonContracting := [0]
  rhsNonContracting := [0]
  lhsBatch := []
  rhsBatch := []
  wf := dot_S32x10000_S26x10000_S32x26_1_1_0_0_n_n_wf

class Facts : Prop extends Facts₀ where

variable [Facts]
-- ==== Proof.Body.lean ====
/-
  What the kernel body leaves in its output block, as a pure function of the four input blocks.

  The body runs five trips of a loop that carries a 32 × 640 accumulator: trip k loads columns 128k … 128k+127
  of the level-word block, the whole level-table block, and rows 128k … 128k+127 of the identity-table block,
  and adds their bound partial sum to the accumulator.  After the loop the accumulator's sign pattern is
  contracted with the class-table block and stored.  So the output block is the last payload of the accumulator
  after five trips ('accAt … 5'), each trip one application of the trip payload to the tiles it loads.
-/
import proofs.«176997_j36850819399702_2_alg».proof.Proof.Gen.KernelIdeal.Frame
import Idealize.ShloMosaic.Lib.Pipeline.Value

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- The loop makes five trips. -/
theorem trips_eq : k0_t1_loop.trips = 5 := by decide +kernel

/-- Trip k's tile of the level words: columns 128k … 128k+127. -/
def idxTile (x0 : Vec F S32x640 .i32) (k : Fin k0_t1_loop.trips) : Vec F S32x128 .i32 :=
  View.ld x0 (Rect.unit (s := S32x640) (k0_off1 k) S32x128.size (k0_off1_inb k))

/-- Trip k's tile of the identity table: rows 128k … 128k+127. -/
def idwTile (x1 : Vec F S640x640 .bf16) (k : Fin k0_t1_loop.trips) : Vec F S128x640 .bf16 :=
  View.ld x1 (Rect.unit (s := S640x640) (k0_off2 k) S128x640.size (k0_off2_inb k))

/-- The accumulator before trip n: zero, then one trip payload per trip. -/
def accAt (x0 : Vec F S32x640 .i32) (x1 : Vec F S640x640 .bf16) (x2 : Vec F S128x640 .bf16) : ℕ → FVec F S32x640 .f32
  | 0 => k0_pay1
  | n + 1 => if h : n < k0_t1_loop.trips then k0_pay2 (accAt x0 x1 x2 n) (idxTile x0 ⟨n, h⟩) x2 (idwTile x1 ⟨n, h⟩) else accAt x0 x1 x2 n

section
variable (𝒱 : Variants) (c : Dev nD) (bd : Option 𝒱.V) (i : grid0.Coords)
  (arg1 : Memref sig .tc .vmem S32x640 .i32) (harg1 : arg1.IsWhole) (arg2 : Memref sig .tc .vmem S640x640 .bf16) (harg2 : arg2.IsWhole)
  (arg3 : Memref sig .tc .vmem S128x640 .bf16) (harg3 : arg3.IsWhole) (arg4 : Memref sig .tc .vmem S128x640 .bf16) (harg4 : arg4.IsWhole)
  (arg5 : Memref sig .tc .vmem S1x32x128 .f32) (harg5 : arg5.IsWhole)
  (x0 : Vec F S32x640 .i32) (x1 : Vec F S640x640 .bf16) (x2 : Vec F S128x640 .bf16) (x3 : Vec F S128x640 .bf16)

/-- One trip: the trip payload of the carried value and the three tiles the trip loads. -/
theorem trip_eq (k : Fin k0_t1_loop.trips) (acc : FVec F S32x640 .f32) :
    tripR_k0_t1 (F := F) 𝒱 c bd i arg1 harg1 arg2 harg2 arg3 harg3 arg4 harg4 arg5 harg5 (harg1.unread x0) (harg2.unread x1) (harg3.unread x2) k acc
      = k0_pay2 acc (idxTile x0 k) x2 (idwTile x1 k) := by
  have hz : (![0, 0] : Fin S128x640.rank → Nat) = fun _ => 0 := by decide
  unfold tripR_k0_t1 trip_k0_t1
  dsimp only
  simp only [View.readAt_eq_ld, harg1.read_unread, harg2.read_unread, harg3.read_unread, View.ld_unit_zero (S := S128x640) hz]
  rfl

/-- The carried value before trip n is the accumulator. -/
theorem st_eq (n : ℕ) :
    st_k0_t1 (F := F) 𝒱 c bd i arg1 harg1 arg2 harg2 arg3 harg3 arg4 harg4 arg5 harg5 (harg1.unread x0) (harg2.unread x1) (harg3.unread x2) k0_pay1 n
      = accAt x0 x1 x2 n := by
  induction n with
  | zero => rfl
  | succ n ih =>
    rw [st_k0_t1.eq_2, accAt]
    unfold st_k0_t1Step
    split
    · rw [trip_eq, ih]
    · exact ih

/-- The output block: the sign-and-classify payload of the accumulator after the loop and the class-table block. -/
theorem out_eq :
    out0_A_4 c i arg1 harg1 arg2 harg2 arg3 harg3 arg4 harg4 arg5 harg5 x0 x1 x2 x3
      = k0_pay3 (accAt x0 x1 x2 5) x3 := by
  have hz3 : (![0, 0, 0] : Fin S1x32x128.rank → Nat) = fun _ => 0 := by decide
  have hz : (![0, 0] : Fin S128x640.rank → Nat) = fun _ => 0 := by decide
  have ht : Scf.trips (0#32) (Scalar.addi 0#32 5#32) 1#32 = 5 := trips_eq
  unfold out0_A_4
  rw [View.read_writes_eq_canon _ _ _ (cover0_A_4 c i arg1 harg1 arg2 harg2 arg3 harg3 arg4 harg4 arg5 harg5 x0 x1 x2 x3)]
  unfold kernelRun0_A
  dsimp only
  rw [View.canon_unit_zero (S := S1x32x128) hz3]
  simp only [View.readAt_eq_ld, harg4.read_unread, View.ld_unit_zero (S := S128x640) hz, st_eq, ht]

end

end Cert.Proof.Body

end
-- ==== Proof.Spec.lean ====
/-
  The two programs as index-by-index formulas on the extended reals.

  Every input entry x(b,s) is turned into a level word: x·99 rounded to the nearest integer (ties to even),
  clipped to [0, 99], converted to a 32-bit integer ('level').  The reference gathers row level(x(b,s)) of the
  level table L, multiplies it entrywise by row s of the identity table W, sums over the 617 features s, takes
  the sign pattern 'enc' of the sum (1 where it is positive, else -1) and contracts it with the class table C
  over the 10000 dimensions ('refLogit').

  The kernel works on zero-padded tables (640 × 10240, 128 × 10240, 128 × 10240) and a level array padded with
  the word -1 to 640 features.  It selects a row of the padded level table by a one-hot product over 128 levels,
  sums over the 640 padded features in five tiles of 128 (accumulated from zero, left to right), and contracts
  the sign pattern with the padded class table in sixteen tiles of 640 dimensions, the sixteen partial results
  summed at the end ('kerLogit').
-/
import Idealize.ShloMosaic.PureOps.Ideal
import Idealize.ShloMosaic.Lib.ValueIdx

noncomputable section

open scoped BigOperators

namespace Cert.Proof.Spec

open Idealize.ShloMosaic

/-- The level word of an input entry: x·99 rounded to nearest (ties to even), clipped to [0, 99], as a 32-bit integer. -/
def level (x : Ideal .f32) : BitVec 32 :=
  FloatOps.fptosi (F := Ideal) 32
    (FloatOps.minimumf (FloatOps.sitofp (F := Ideal) .f32 (99#32))
      (FloatOps.maximumf (FloatOps.sitofp (F := Ideal) .f32 (0#32))
        (FloatOps.hostUnary .roundeven (FloatOps.mulf x (FloatOps.ofBits (F := Ideal) .f32 0x42C60000#32)))))

/-- The sign pattern: 1 where the value is positive, else -1. -/
def enc (v : Ideal .f32) : Ideal .f32 :=
  Scalar.select (FloatOps.cmpf (F := Ideal) .ogt v (FloatOps.ofBits (F := Ideal) .f32 0x00000000#32))
    (FloatOps.ofBits (F := Ideal) .f32 0x3F800000#32) (FloatOps.ofBits (F := Ideal) .f32 0xBF800000#32)

/-- The row of the 100-row level table a word selects: the word read unsigned, capped at 99. -/
def lvlRow (w : BitVec 32) : Fin 100 := ⟨min w.toNat 99, by omega⟩

/-- THE REFERENCE: logit(b,c) = Σ_D enc(Σ_s W(s,D)·L(level x(b,s), D)) · C(c,D). -/
def refLogit (x : Fin 32 → Fin 617 → Ideal .f32) (W : Fin 617 → Fin 10000 → Ideal .f32)
    (L : Fin 100 → Fin 10000 → Ideal .f32) (C : Fin 26 → Fin 10000 → Ideal .f32) (b : Fin 32) (c : Fin 26) : Ideal .f32 :=
  ∑ D : Fin 10000, enc (∑ s : Fin 617, W s D * L (lvlRow (level (x b s))) D) * C c D

/-! ## The kernel's padded arrays and tiles -/

/-- The level array padded with the word -1 to 640 features. -/
def padIdx (x : Fin 32 → Fin 617 → Ideal .f32) (b : Fin 32) (s : Fin 640) : BitVec 32 :=
  if h : s.val < 617 then level (x b ⟨s.val, h⟩) else 4294967295#32

/-- A table zero-padded to r × 10240. -/
def padT {n r : ℕ} (T : Fin n → Fin 10000 → Ideal .f32) (i : Fin r) (D : Fin 10240) : Ideal .f32 :=
  if h : i.val < n ∧ D.val < 10000 then T ⟨i.val, h.1⟩ ⟨D.val, h.2⟩ else 0

/-- One entry of the one-hot row of a level word over 128 levels. -/
def onehot (w : BitVec 32) (l : Fin 128) : Ideal .f32 := if w = BitVec.ofNat 32 l.val then 1 else 0

/-- Feature 128·k + s of tile k. -/
def feat (k : Fin 5) (s : Fin 128) : Fin 640 := ⟨k.val * 128 + s.val, by omega⟩
/-- Dimension 640·d + e of tile d. -/
def dim (d : Fin 16) (e : Fin 640) : Fin 10240 := ⟨d.val * 640 + e.val, by omega⟩

/-- The row of the padded level table selected by a one-hot product. -/
def picked (x : Fin 32 → Fin 617 → Ideal .f32) (L : Fin 100 → Fin 10000 → Ideal .f32) (b : Fin 32) (s : Fin 640) (D : Fin 10240) : Ideal .f32 :=
  ∑ l : Fin 128, onehot (padIdx x b s) l * padT (r := 128) L l D

/-- Tile k's part of the bound sum. -/
def part (x : Fin 32 → Fin 617 → Ideal .f32) (W : Fin 617 → Fin 10000 → Ideal .f32) (L : Fin 100 → Fin 10000 → Ideal .f32)
    (b : Fin 32) (D : Fin 10240) (k : Fin 5) : Ideal .f32 :=
  ∑ s : Fin 128, padT (r := 640) W (feat k s) D * picked x L b (feat k s) D

/-- The bound sum accumulated from zero over the five tiles, left to right. -/
def acc (x : Fin 32 → Fin 617 → Ideal .f32) (W : Fin 617 → Fin 10000 → Ideal .f32) (L : Fin 100 → Fin 10000 → Ideal .f32)
    (b : Fin 32) (D : Fin 10240) : Ideal .f32 :=
  ((((0 + part x W L b D 0) + part x W L b D 1) + part x W L b D 2) + part x W L b D 3) + part x W L b D 4

/-- Tile d's partial logit, for padded class c. -/
def tileLogit (x : Fin 32 → Fin 617 → Ideal .f32) (W : Fin 617 → Fin 10000 → Ideal .f32) (L : Fin 100 → Fin 10000 → Ideal .f32)
    (C : Fin 26 → Fin 10000 → Ideal .f32) (d : Fin 16) (b : Fin 32) (c : Fin 128) : Ideal .f32 :=
  ∑ e : Fin 640, enc (acc x W L b (dim d e)) * padT (r := 128) C c (dim d e)

/-- THE KERNEL: logit(b,c) = Σ_d tileLogit(d,b,c). -/
def kerLogit (x : Fin 32 → Fin 617 → Ideal .f32) (W : Fin 617 → Fin 10000 → Ideal .f32) (L : Fin 100 → Fin 10000 → Ideal .f32)
    (C : Fin 26 → Fin 10000 → Ideal .f32) (b : Fin 32) (c : Fin 26) : Ideal .f32 :=
  ∑ d : Fin 16, tileLogit x W L C d b ⟨c.val, by omega⟩

end Cert.Proof.Spec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.LibFlattenRows.lean ====
/-
  Flattening the two leading axes of a rank-3 array, and un-flattening them.

  Row-major order does not change when the axes `a` and `b` of an `[a, b, c]` array are merged into one axis of
  extent `n = a·b`: entry `(x, y, z)` of the rank-3 array and entry `(x·b + y, z)` of the matrix sit at the same
  position `(x·b + y)·c + z`. So a reshape in either direction reads the operand at the matching index, for any
  element type and any extents.
-/
import Idealize.ShloMosaic.Lib.Pipeline.Value
import Idealize.ShloMosaic.Lib.ValueIdx

namespace Cert.Lib

open Idealize.ShloMosaic Idealize.ShloMosaic.ValueIdx

variable {α : Type}

/-- An `[a, b, c]` array reshaped to `[n, c]` reads, at row `r = x·b + y` and column `z`, the operand at `(x, y, z)`. -/
theorem shapeCast_abc_nc_apply {a b c n : ℕ} (X : (⟨3, ![a, b, c]⟩ : Shape).Idx → α)
    (h : (⟨3, ![a, b, c]⟩ : Shape).ShapeCasts ⟨2, ![n, c]⟩) (x : Fin a) (y : Fin b) (z : Fin c) (r : Fin n)
    (hr : r.val = x.val * b + y.val) : shapeCast ⟨2, ![n, c]⟩ X h (ix2 r z) = X (ix3 x y z) :=
  shapeCast_apply X h _ _ (by
    rw [Shape.rowMajor_val_three, Shape.rowMajor_val_two]
    show (x.val * b + y.val) * c + z.val = r.val * c + z.val
    rw [hr])

/-- An `[n, c]` matrix reshaped to `[a, b, c]` reads, at `(x, y, z)`, the operand at row `r = x·b + y`, column `z`. -/
theorem shapeCast_nc_abc_apply {a b c n : ℕ} (Y : (⟨2, ![n, c]⟩ : Shape).Idx → α)
    (h : (⟨2, ![n, c]⟩ : Shape).ShapeCasts ⟨3, ![a, b, c]⟩) (x : Fin a) (y : Fin b) (z : Fin c) (r : Fin n)
    (hr : r.val = x.val * b + y.val) : shapeCast ⟨3, ![a, b, c]⟩ Y h (ix3 x y z) = Y (ix2 r z) :=
  shapeCast_apply Y h _ _ (by
    rw [Shape.rowMajor_val_two, Shape.rowMajor_val_three]
    show r.val * c + z.val = (x.val * b + y.val) * c + z.val
    rw [hr])

end Cert.Lib
-- ==== Proof.LibKeepRows.lean ====
/-
  A reduction over the last axis of a rank-3 array that keeps the axis, read at an index.

  For an array of shape [a, b, c]:
  * a [a, b] array cast to [a, b, 1] reads, at (i, j, u), the operand at (i, j)             (shapeCast_ab_ab1_apply);
  * a [a, b, 1] array broadcast to [a, b, c] reads, at (i, j, k), the operand at (i, j, 0)   (broadcastTo_ab1_abc_apply);
  * a [1, b, c] array broadcast to [a, b, c] reads, at (i, j, k), the operand at (0, j, k)   (broadcastTo_1bc_abc_apply);
  * over the exact reals-with-infinities, the sum over the last axis into [a, b] reads, at (i, j), the sum over k
    of the source at (i, j, k)                                                                (sumLast_apply).
  Together: a per-row statistic of an [a, b, c] array, kept as a column and spread back over the row, read at
  (i, j, k), is the statistic of row (i, j). For any extents and (the first three) any element type.
-/
import Idealize.ShloMosaic.Lib.Pipeline.Value
import Idealize.ShloMosaic.Lib.ValueIdx
import Idealize.ShloMosaic.PureOps.Ideal.Laws

noncomputable section

namespace Cert.Lib.KeepRows

open Idealize.ShloMosaic Idealize.ShloMosaic.ValueIdx
open scoped BigOperators

variable {α : Type}

/-- An [a, b] array cast to [a, b, 1] reads, at (i, j, u), the operand at (i, j): the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of row (i, j). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A [1, b, c] array broadcast to [a, b, c] reads, at (i, j, k), the operand's one slab at (j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- Over the extended reals, the sum of an [a, b, c] array over its last axis reads, at (i, j), the sum over k of the
    entries (i, j, k): the index with the summed coordinate put back is (i, j, k). -/
theorem sumLast_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

end Cert.Lib.KeepRows

end
-- ==== Proof.Payload.lean ====
/-
  The kernel body's three pure values read at an index, over the extended reals.

  * The carried sum starts as the zero word spread over [32, 640]: every entry is 0 ('pay1_apply').
  * One trip of the feature loop ('pay2_apply'). The trip's 32 × 128 level words w(b,s) are kept as a column and
    spread over 128 levels, compared for equality with the level counter l along the last axis, and the one-bit
    result is widened and converted: the entry (b,s,l) is 1 when w(b,s) is the word of l and 0 otherwise, the
    one-hot row 'onehot (w(b,s))'. The [32,128,128] one-hot array is flattened to [4096,128] (row b·128+s),
    multiplied with the level block T [128,640] into a zero accumulator, and reshaped back to [32,128,640]: entry
    (b,s,e) is Σ_l onehot(w(b,s)) l · T(l,e), the row of T the word selects. It is multiplied entrywise with the
    identity block V [128,640] spread over the 32 rows b, summed over the middle axis s from the zero word, and
    added to the carried value: carried(b,e) + Σ_s V(s,e) · Σ_l onehot(w(b,s)) l · T(l,e). Changes of float
    format are the identity on the extended reals.
  * The classification ('pay3_apply'). The bound sum is compared with the zero word and the words 1.0 / -1.0 are
    selected accordingly: pointwise the sign pattern 'enc'. The [32,640] pattern is multiplied with the transposed
    class block C [128,640] into a zero accumulator, Σ_e enc(v(b,e)) · C(c,e), and given a leading unit axis.
-/
import proofs.«176997_j36850819399702_2_alg».proof.Proof.Gen.KernelIdeal.Skeleton
import proofs.«176997_j36850819399702_2_alg».proof.Proof.Spec
import Idealize.ShloMosaic.Lib.ValueLayout
import proofs.«176997_j36850819399702_2_alg».proof.Proof.LibDot
import proofs.«176997_j36850819399702_2_alg».proof.Proof.LibGram
import proofs.«176997_j36850819399702_2_alg».proof.Proof.LibFlattenRows
import proofs.«176997_j36850819399702_2_alg».proof.Proof.LibKeepRows

noncomputable section

open scoped BigOperators

namespace Cert.Proof.Payload

open Cert.KernelIdeal Cert.KernelIdeal.Gen Cert.Proof.Spec Idealize.ShloMosaic Idealize.ShloMosaic.ValueIdx

/-! ## The initial carried value -/

/-- The zero word spread over [32, 640] is 0 at every index. -/
theorem pay1_apply (i : S32x640.Idx) : k0_pay1 (F := Ideal) i = 0 := by
  unfold k0_pay1
  show Ideal.ofBits .f32 0x00000000#32 = 0
  exact Ideal.ofBits_zero_f32

/-! ## One trip of the feature loop -/

/-- Over the extended reals, the sum of an [a, b, c] array over its middle axis reads, at (i, k), the sum over j of
    the entries (i, j, k): the index with the summed coordinate put back is (i, j, k). -/
theorem sumMid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction (F := Ideal) .add [1] ⟨2, ![a, c]⟩ src acc h hφ hacc (ix2 i k) = ∑ j : Fin b, src (ix3 i j k) := by
  refine (Ideal.multiReduction_add_single src acc h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The level counter along the last axis reads its own coordinate. -/
theorem iota_last_apply (b : Fin 32) (s l : Fin 128) :
    iota .tc S32x128x128 32 [2] iota_S32x128x128_d2_w32 (ix3 b s l) = BitVec.ofNat 32 l.val := by
  show BitVec.ofNat 32 (0 * 128 + l.val) = _
  rw [Nat.zero_mul, Nat.zero_add]

/-- A word compared for equality with a level, widened and converted, is the one-hot entry. -/
theorem onehot_word (w : BitVec 32) (l : Fin 128) :
    (FloatOps.sitofp (F := Ideal) .f32 ((IntOp.cmpi .eq w (BitVec.ofNat 32 l.val)).setWidth 32) : Ideal .f32) = onehot w l := by
  show (((((IntOp.cmpi .eq w (BitVec.ofNat 32 l.val)).setWidth 32).toInt : ℤ) : ℝ) : EReal) = _
  unfold onehot
  by_cases h : w = BitVec.ofNat 32 l.val
  · have hc : IntOp.cmpi .eq w (BitVec.ofNat 32 l.val) = 1#1 := by simp [IntOp.cmpi, h]
    rw [if_pos h, hc]
    have : ((1#1 : BitVec 1).setWidth 32).toInt = 1 := by decide
    rw [this]; norm_cast
  · have hb : (w == BitVec.ofNat 32 l.val) = false := beq_eq_false_iff_ne.mpr h
    have hc : IntOp.cmpi .eq w (BitVec.ofNat 32 l.val) = 0#1 := by
      show BitVec.ofBool (w == BitVec.ofNat 32 l.val) = 0#1
      rw [hb]; rfl
    rw [if_neg h, hc]
    have : ((0#1 : BitVec 1).setWidth 32).toInt = 0 := by decide
    rw [this]; norm_cast

/-- The level words kept as a column and spread over the 128 levels read, at (b, s, l), the word of (b, s). -/
theorem words_spread_apply (w : IVec S32x128 32) (b : Fin 32) (s l : Fin 128) :
    broadcastTo S32x128x128 (shapeCast S32x128x1 (shapeCast S32x128 w shapeCasts_S32x128_S32x128) shapeCasts_S32x128_S32x128x1)
      broadcasts_S32x128x1_S32x128x128 (ix3 b s l) = w (ix2 b s) := by
  refine (Cert.Lib.KeepRows.broadcastTo_ab1_abc_apply _ _ b s l).trans ?_
  refine (Cert.Lib.KeepRows.shapeCast_ab_ab1_apply _ _ b s (0 : Fin 1)).trans ?_
  rw [shapeCast_self]

/-- The identity block spread over the 32 rows reads, at (b, s, e), its own entry (s, e). -/
theorem block_spread_apply (W : FVec Ideal S128x640 .bf16) (b : Fin 32) (s : Fin 128) (e : Fin 640) :
    broadcastTo S32x128x640 (shapeCast S1x128x640 (shapeCast S128x640 W shapeCasts_S128x640_S128x640) shapeCasts_S128x640_S1x128x640)
      broadcasts_S1x128x640_S32x128x640 (ix3 b s e) = W (ix2 s e) := by
  refine (Cert.Lib.KeepRows.broadcastTo_1bc_abc_apply _ _ b s e).trans ?_
  refine (shapeCast_ab_1ab_apply _ _ (0 : Fin 1) s e).trans ?_
  rw [shapeCast_self]

/-- Flatten the two leading axes, multiply by a matrix into zero, restore the axes: at (b, s, e) the sum over the
    contracted level l of A(b, s, l) · B(l, e). -/
theorem flat_matmul_apply (A : FVec Ideal S32x128x128 .bf16) (B : FVec Ideal S128x640 .bf16) (b : Fin 32) (s : Fin 128) (e : Fin 640) :
    shapeCast S32x128x640
      (matmul (F := Ideal) dot_S4096x128_S128x640_S4096x640_1_0_0_1_n_n none (shapeCast S4096x128 A shapeCasts_S32x128x128_S4096x128) B
        (constant (F := Ideal) S4096x640 .f32 0x00000000#32))
      shapeCasts_S4096x640_S32x128x640 (ix3 b s e) = ∑ l : Fin 128, A (ix3 b s l) * B (ix2 l e) := by
  have hr : (⟨b.val * 128 + s.val, by omega⟩ : Fin 4096).val = b.val * 128 + s.val := rfl
  refine (Cert.Lib.shapeCast_nc_abc_apply _ _ b s e ⟨b.val * 128 + s.val, by omega⟩ hr).trans ?_
  refine (Cert.LibDot.matmul_zero_apply (φ₁ := .bf16) (φ₂ := .bf16) dot_S4096x128_S128x640_S4096x640_1_0_0_1_n_n_wf none _ _ _ e).trans ?_
  refine Finset.sum_congr rfl fun l _ => ?_
  exact congrArg (· * B (ix2 l e)) (Cert.Lib.shapeCast_abc_nc_apply A _ b s l ⟨b.val * 128 + s.val, by omega⟩ hr)

/-- One trip's update of the carried sum at (b, e): the carried value plus the sum over the tile's 128 features s of
    the identity entry (s, e) times the level-table row selected by the one-hot row of the word (b, s). -/
theorem pay2_apply (arg7 : FVec Ideal S32x640 .f32) (v18 : Vec Ideal S32x128 .i32) (v28 v34 : Vec Ideal S128x640 .bf16) (b : Fin 32) (e : Fin 640) :
    k0_pay2 (F := Ideal) arg7 v18 v28 v34 (ix2 b e)
      = arg7 (ix2 b e) + ∑ s : Fin 128, (v34 (ix2 s e) : EReal) * ∑ l : Fin 128, onehot (v18 (ix2 b s)) l * (v28 (ix2 l e) : EReal) := by
  unfold k0_pay2
  refine congrArg (fun t : EReal => arg7 (ix2 b e) + t) ?_
  refine (sumMid_apply _ _ _ _ _ b e).trans ?_
  refine Finset.sum_congr rfl fun s _ => ?_
  refine congrArg₂ (fun x y : EReal => x * y) (block_spread_apply v34 b s e) ?_
  refine (flat_matmul_apply _ _ b s e).trans ?_
  refine Finset.sum_congr rfl fun l _ => ?_
  refine congrArg₂ (fun x y : EReal => x * y) ?_ (congrFun (shapeCast_self v28 _) (ix2 l e))
  show (FloatOps.sitofp (F := Ideal) .f32 ((IntOp.cmpi .eq (broadcastTo S32x128x128 (shapeCast S32x128x1 (shapeCast S32x128 v18 shapeCasts_S32x128_S32x128) shapeCasts_S32x128_S32x128x1)
      broadcasts_S32x128x1_S32x128x128 (ix3 b s l)) (iota .tc S32x128x128 32 [2] iota_S32x128x128_d2_w32 (ix3 b s l))).setWidth 32) : Ideal .f32) = _
  rw [words_spread_apply, iota_last_apply]
  exact onehot_word _ l

/-! ## The classification -/

/-- The stored value at (0, b, c): the sign pattern of row b of the bound sum contracted with row c of the class block
    over the 640 dimensions of the tile. The select between the words 1.0 and -1.0 on "greater than the zero word" is
    'enc' entry by entry, by unfolding. -/
theorem pay3_apply (v2 : FVec Ideal S32x640 .f32) (v9 : Vec Ideal S128x640 .bf16) (b : Fin 32) (c : Fin 128) :
    k0_pay3 (F := Ideal) v2 v9 (ix3 (0 : Fin 1) b c) = ∑ e : Fin 640, enc (v2 (ix2 b e)) * (v9 (ix2 c e) : EReal) := by
  unfold k0_pay3
  refine (shapeCast_ab_1ab_apply _ _ (0 : Fin 1) b c).trans ?_
  rw [shapeCast_self]
  refine (Cert.LibGram.matmul_zero_apply (φ₁ := .bf16) (φ₂ := .bf16) dot_S32x640_S128x640_S32x128_1_1_0_0_n_n_wf none _ _ b c).trans ?_
  rfl

end Cert.Proof.Payload

end
-- ==== Proof.Tile.lean ====
/-
  One grid point's output block as a formula.

  Given the four input blocks entry by entry — the level words padIdx X, and column tile d of the padded
  identity, level and class tables — the accumulator after the five trips is Spec.acc at dimension 640·d + e,
  and the stored block is Spec.tileLogit d.
-/
import proofs.«176997_j36850819399702_2_alg».proof.Proof.Body
import proofs.«176997_j36850819399702_2_alg».proof.Proof.Payload
import proofs.«176997_j36850819399702_2_alg».proof.Proof.Spec

set_option maxRecDepth 16384

noncomputable section

open scoped BigOperators

namespace Cert.Proof.Tile

open Cert.KernelIdeal Cert.KernelIdeal.Gen Cert.Proof.Spec Cert.Proof.Body Cert.Proof.Payload
open Idealize.ShloMosaic Idealize.ShloMosaic.TcCoe Idealize.ShloMosaic.ValueIdx
open Idealize.SL Idealize.SL.Sem

/-- Trip k's level-word tile at (b,s) is the block's entry at column 128k + s. -/
theorem idxTile_apply (x0 : Vec Ideal S32x640 .i32) (k : Fin k0_t1_loop.trips) (b : Fin 32) (s : Fin 128) (S : Fin 640)
    (hS : S.val = k.val * 128 + s.val) : idxTile x0 k (ix2 b s) = x0 (ix2 b S) := by
  have h := k0_off1_eq k
  show x0 ((Rect.unit (s := S32x640) (k0_off1 k) S32x128.size (k0_off1_inb k)).emb (ix2 b s)) = x0 (ix2 b S)
  refine congrArg _ (funext fun a => Fin.ext ?_)
  match a with
  | ⟨0, _⟩ => show k0_off1 k 0 + 1 * b.val = b.val; rw [h]; show 0 + 1 * b.val = b.val; omega
  | ⟨1, _⟩ => show k0_off1 k 1 + 1 * s.val = S.val; rw [h]; show 128 * k.val + 1 * s.val = S.val; omega

/-- Trip k's identity-table tile at (s,e) is the block's entry at row 128k + s. -/
theorem idwTile_apply (x1 : Vec Ideal S640x640 .bf16) (k : Fin k0_t1_loop.trips) (s : Fin 128) (e : Fin 640) (S : Fin 640)
    (hS : S.val = k.val * 128 + s.val) : idwTile x1 k (ix2 s e) = x1 (ix2 S e) := by
  have h := k0_off2_eq k
  show x1 ((Rect.unit (s := S640x640) (k0_off2 k) S128x640.size (k0_off2_inb k)).emb (ix2 s e)) = x1 (ix2 S e)
  refine congrArg _ (funext fun a => Fin.ext ?_)
  match a with
  | ⟨0, _⟩ => show k0_off2 k 0 + 1 * s.val = S.val; rw [h]; show 128 * k.val + 1 * s.val = S.val; omega
  | ⟨1, _⟩ => show k0_off2 k 1 + 1 * e.val = e.val; rw [h]; show 0 + 1 * e.val = e.val; omega

section
variable (X : Fin 32 → Fin 617 → Ideal .f32) (W : Fin 617 → Fin 10000 → Ideal .f32) (L : Fin 100 → Fin 10000 → Ideal .f32)
  (C : Fin 26 → Fin 10000 → Ideal .f32) (d : Fin 16)
  (x0 : Vec Ideal S32x640 .i32) (x1 : Vec Ideal S640x640 .bf16) (x2 x3 : Vec Ideal S128x640 .bf16)
  (h0 : ∀ (b : Fin 32) (s : Fin 640), x0 (ix2 b s) = padIdx X b s)
  (h1 : ∀ (s : Fin 640) (e : Fin 640), (x1 (ix2 s e) : EReal) = padT (r := 640) W s (dim d e))
  (h2 : ∀ (l : Fin 128) (e : Fin 640), (x2 (ix2 l e) : EReal) = padT (r := 128) L l (dim d e))
  (h3 : ∀ (k : Fin 128) (e : Fin 640), (x3 (ix2 k e) : EReal) = padT (r := 128) C k (dim d e))

include h0 h1 h2 in
/-- One trip adds its tile's part of the bound sum. -/
theorem accAt_succ_apply (n : ℕ) (h : n < k0_t1_loop.trips) (k : Fin 5) (hk : k.val = n) (b : Fin 32) (e : Fin 640) :
    accAt x0 x1 x2 (n + 1) (ix2 b e) = accAt x0 x1 x2 n (ix2 b e) + part X W L b (dim d e) k := by
  rw [accAt, dif_pos h]
  refine (pay2_apply _ _ _ _ b e).trans (congrArg (_ + ·) ?_)
  unfold part picked
  refine Finset.sum_congr rfl fun s _ => ?_
  rw [idwTile_apply x1 ⟨n, h⟩ s e (feat k s) (by show k.val * 128 + s.val = n * 128 + s.val; rw [hk]), h1]
  refine congrArg (_ * ·) (Finset.sum_congr rfl fun l _ => ?_)
  rw [idxTile_apply x0 ⟨n, h⟩ b s (feat k s) (by show k.val * 128 + s.val = n * 128 + s.val; rw [hk]), h0, h2]

include h0 h1 h2 in
/-- After the five trips the accumulator is the bound sum accumulated tile by tile. -/
theorem accAt_five (b : Fin 32) (e : Fin 640) : accAt x0 x1 x2 5 (ix2 b e) = acc X W L b (dim d e) := by
  have ht : ∀ n, n < 5 → n < k0_t1_loop.trips := fun n hn => by rw [trips_eq]; exact hn
  unfold acc
  rw [accAt_succ_apply X W L d x0 x1 x2 h0 h1 h2 4 (ht 4 (by decide)) 4 rfl,
    accAt_succ_apply X W L d x0 x1 x2 h0 h1 h2 3 (ht 3 (by decide)) 3 rfl,
    accAt_succ_apply X W L d x0 x1 x2 h0 h1 h2 2 (ht 2 (by decide)) 2 rfl,
    accAt_succ_apply X W L d x0 x1 x2 h0 h1 h2 1 (ht 1 (by decide)) 1 rfl,
    accAt_succ_apply X W L d x0 x1 x2 h0 h1 h2 0 (ht 0 (by decide)) 0 rfl]
  show k0_pay1 (F := Ideal) (ix2 b e) + _ + _ + _ + _ + _ = _
  rw [pay1_apply]

include h0 h1 h2 h3 in
/-- The stored block is tile d's partial logit. -/
theorem block_formula (b : Fin 32) (k : Fin 128) :
    k0_pay3 (F := Ideal) (accAt x0 x1 x2 5) x3 (ix3 (0 : Fin 1) b k) = tileLogit X W L C d b k := by
  rw [pay3_apply]
  unfold tileLogit
  refine Finset.sum_congr rfl fun e _ => ?_
  rw [accAt_five X W L d x0 x1 x2 h0 h1 h2 b e, h3]

end

end Cert.Proof.Tile

end
-- ==== Proof.BlockReads.lean ====
/-
  The input blocks of the kernel at grid point t, read off the arrays as the region finds them.

  The level-word array is one block (32 × 640), the same at every point; the three tables are cut along their
  second axis into sixteen column tiles of 640, and point t reads tile t: local column e is column 640·t + e.
-/
import proofs.«176997_j36850819399702_2_alg».proof.Proof.Gen.KernelIdeal.Frame
import Idealize.ShloMosaic.Lib.Pipeline.Value
import Idealize.ShloMosaic.Lib.ValueIdx

set_option maxRecDepth 16384

noncomputable section

namespace Cert.Proof.BlockReads

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (c : Dev nD)

/-- The index maps of the four input windows over the grid: the level words stay at block (0,0); each table is at
    block (0,t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The level-word block is the whole array. -/
theorem iblk0_apply (t : Fin cfg0.N) (b : Fin 32) (s : Fin 640) :
    iblk m c 0 t (ix2 b s) = V m c main_v5 (ix2 b s) := by
  obtain ⟨e0, e1, -⟩ := idx_facts t
  show V m c main_v5 (((cfg0.win 0).blk t).view.emb (ix2 b s)) = V m c main_v5 (ix2 b s)
  refine congrArg _ (funext fun a => Fin.ext ?_)
  match a with
  | ⟨0, _⟩ => show win0_0.index t (0 : Fin 2) * 32 + 1 * b.val = b.val; omega
  | ⟨1, _⟩ => show win0_0.index t (1 : Fin 2) * 640 + 1 * s.val = s.val; omega

/-- Point t's identity-table block: column tile t. -/
theorem iblk1_apply (t : Fin cfg0.N) (s : Fin 640) (e : Fin 640) (D : Fin 10240) (hD : D.val = t.val * 640 + e.val) :
    iblk m c 1 t (ix2 s e) = V m c main_v7 (ix2 s D) := by
  obtain ⟨-, -, e0, e1, -⟩ := idx_facts t
  show V m c main_v7 (((cfg0.win 1).blk t).view.emb (ix2 s e)) = V m c main_v7 (ix2 s D)
  refine congrArg _ (funext fun a => Fin.ext ?_)
  match a with
  | ⟨0, _⟩ => show win0_1.index t (0 : Fin 2) * 640 + 1 * s.val = s.val; omega
  | ⟨1, _⟩ => show win0_1.index t (1 : Fin 2) * 640 + 1 * e.val = D.val; omega

/-- Point t's level-table block: column tile t. -/
theorem iblk2_apply (t : Fin cfg0.N) (l : Fin 128) (e : Fin 640) (D : Fin 10240) (hD : D.val = t.val * 640 + e.val) :
    iblk m c 2 t (ix2 l e) = V m c main_v9 (ix2 l D) := by
  obtain ⟨-, -, -, -, e0, e1, -⟩ := idx_facts t
  show V m c main_v9 (((cfg0.win 2).blk t).view.emb (ix2 l e)) = V m c main_v9 (ix2 l D)
  refine congrArg _ (funext fun a => Fin.ext ?_)
  match a with
  | ⟨0, _⟩ => show win0_2.index t (0 : Fin 2) * 128 + 1 * l.val = l.val; omega
  | ⟨1, _⟩ => show win0_2.index t (1 : Fin 2) * 640 + 1 * e.val = D.val; omega

/-- Point t's class-table block: column tile t. -/
theorem iblk3_apply (t : Fin cfg0.N) (k : Fin 128) (e : Fin 640) (D : Fin 10240) (hD : D.val = t.val * 640 + e.val) :
    iblk m c 3 t (ix2 k e) = V m c main_v11 (ix2 k D) := by
  obtain ⟨-, -, -, -, -, -, e0, e1⟩ := idx_facts t
  show V m c main_v11 (((cfg0.win 3).blk t).view.emb (ix2 k e)) = V m c main_v11 (ix2 k D)
  refine congrArg _ (funext fun a => Fin.ext ?_)
  match a with
  | ⟨0, _⟩ => show win0_3.index t (0 : Fin 2) * 128 + 1 * k.val = k.val; omega
  | ⟨1, _⟩ => show win0_3.index t (1 : Fin 2) * 640 + 1 * e.val = D.val; omega

end Cert.Proof.BlockReads

end
-- ==== Proof.Args.lean ====
/-
  The four argument arrays of the kernel program, on one core, as plain functions of their coordinates:
  the inputs x (32 × 617), the identity table (617 × 10000), the level table (100 × 10000) and the class
  table (26 × 10000).
-/
import proofs.«176997_j36850819399702_2_alg».proof.KernelIdeal
import Idealize.ShloMosaic.Lib.ValueIdx

noncomputable section

namespace Cert.Proof.Args

open Cert.KernelIdeal Idealize.ShloMosaic Idealize.ShloMosaic.TcCoe Idealize.ShloMosaic.ValueIdx Idealize.SL.Sem

variable (m : (ℓ : Loc nD τ sig) → Buf (Elt Ideal) ℓ) (c : Dev nD)

/-- The inputs x(b,s). -/
def X : Fin 32 → Fin 617 → Ideal .f32 := fun b s => (m ((c : Thread nD τ).loc main_arg0) : S32x617.Idx → Ideal .f32) (ix2 b s)
/-- The identity table W(s,D). -/
def Wt : Fin 617 → Fin 10000 → Ideal .f32 := fun s D => (m ((c : Thread nD τ).loc main_arg1) : S617x10000.Idx → Ideal .f32) (ix2 s D)
/-- The level table L(l,D). -/
def Lt : Fin 100 → Fin 10000 → Ideal .f32 := fun l D => (m ((c : Thread nD τ).loc main_arg2) : S100x10000.Idx → Ideal .f32) (ix2 l D)
/-- The class table C(k,D). -/
def Ct : Fin 26 → Fin 10000 → Ideal .f32 := fun k D => (m ((c : Thread nD τ).loc main_arg3) : S26x10000.Idx → Ideal .f32) (ix2 k D)

end Cert.Proof.Args

end
-- ==== Proof.HostSide.lean ====
/-
  The kernel program's host operations around its region, read entry by entry on the extended reals.

  Before the region the host turns every input entry x(b,s) into its level word (x·99 rounded to even, clipped to
  [0, 99], converted to a 32-bit integer) and pads the level array with the word -1 from 617 to 640 features; it pads
  the identity table, the level table and the class table with zeros to 640 × 10240, 128 × 10240 and 128 × 10240 (the
  padding value is the integer word 0 converted to a float, which is 0) and narrows them to bf16, which changes nothing
  on the extended reals.  A padded array read at an index is the operand where every coordinate is inside it and the
  padding value elsewhere, so the four arrays the region finds are 'padIdx' of the inputs and 'padT' of the three tables.

  After the region the host sums the sixteen tiles of the region's output from the float word 0 (which is 0) and keeps
  classes 0..25: entry (b, k) of the result is the sum over the sixteen tiles d of entry (d, b, k) of the output.
-/
import proofs.«176997_j36850819399702_2_alg».proof.Proof.Gen.KernelIdeal.Frame
import proofs.«176997_j36850819399702_2_alg».proof.Proof.Spec
import proofs.«176997_j36850819399702_2_alg».proof.Proof.Args
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section
open scoped BigOperators

namespace Cert.Proof.HostSide

open Cert.KernelIdeal Cert.KernelIdeal.Gen Cert.Proof.Spec Cert.Proof.Args Idealize.ShloMosaic Idealize.ShloMosaic.TcCoe Idealize.ShloMosaic.ValueIdx Idealize.SL.Sem
open Idealize.ShloMosaic.StableHlo

/-- A rank-2 array padded at the high end of both axes, read at (i, j): the operand where both coordinates are inside it,
    the padding value elsewhere. -/
theorem pad2_apply {α : Type} {n0 n1 r0 r1 h0 h1 : ℕ} (x : (⟨2, ![n0, n1]⟩ : Shape).Idx → α) {u : Shape} (v : u.Idx → α)
    (hp : (⟨2, ![n0, n1]⟩ : Shape).Pads ![0, 0] ![h0, h1] ![0, 0] ⟨2, ![r0, r1]⟩) (hu : 0 < u.numel) (i : Fin r0) (j : Fin r1) :
    pad (⟨2, ![r0, r1]⟩ : Shape) ![0, 0] ![h0, h1] ![0, 0] x v hp hu (ix2 i j)
      = if h : i.val < n0 ∧ j.val < n1 then x (ix2 ⟨i.val, h.1⟩ ⟨j.val, h.2⟩) else v (Shape.Idx.first hu) := by
  by_cases h : i.val < n0 ∧ j.val < n1
  · rw [dif_pos h]
    refine pad_apply_of_inside _ _ _ x v hp hu _ (ix2 ⟨i.val, h.1⟩ ⟨j.val, h.2⟩) (fun a => ?_)
    match a with
    | ⟨0, _⟩ => show i.val = 0 + i.val * (0 + 1); omega
    | ⟨1, _⟩ => show j.val = 0 + j.val * (0 + 1); omega
  · rw [dif_neg h]
    by_cases h0' : i.val < n0
    · refine pad_apply_of_not_inside _ _ _ x v hp hu _ (1 : Fin 2) ?_
      show ¬(0 ≤ j.val ∧ (j.val - 0) % (0 + 1) = 0 ∧ (j.val - 0) / (0 + 1) < n1)
      have : ¬ j.val < n1 := fun hj => h ⟨h0', hj⟩
      omega
    · refine pad_apply_of_not_inside _ _ _ x v hp hu _ (0 : Fin 2) ?_
      show ¬(0 ≤ i.val ∧ (i.val - 0) % (0 + 1) = 0 ∧ (i.val - 0) / (0 + 1) < n0)
      omega

/-- The level array of the inputs, as the host computes it: x·99, rounded to even, clipped below by 0 and above by 99,
    converted to a 32-bit integer. -/
def lvlArr (x : S32x617.Idx → Ideal .f32) : S32x617.Idx → BitVec 32 :=
  fptosi (F := Ideal) 32
    (minimumf (broadcastInDim S32x617 ![] bcast_S_S32x617 (sitofp (F := Ideal) .f32 (constantI S_ 32 99#32)))
      (maximumf (broadcastInDim S32x617 ![] bcast_S_S32x617 (sitofp (F := Ideal) .f32 (constantI S_ 32 0#32)))
        (Host.roundeven (F := Ideal) (mulf x (broadcastInDim S32x617 ![] bcast_S_S32x617 (constant (F := Ideal) S_ .f32 0x42C60000#32))))))

/-- Entry by entry it is the level word of the entry. -/
theorem lvlArr_apply (x : S32x617.Idx → Ideal .f32) (i : S32x617.Idx) : lvlArr x i = level (x i) := rfl

/-- The padding value of the three tables: the integer word 0 converted to a float, which is 0. -/
theorem zeroPad_apply (i : S_.Idx) : (sitofp (F := Ideal) .f32 (constantI S_ 32 0#32) : S_.Idx → Ideal .f32) i = (0 : EReal) := by
  show (((0#32 : BitVec 32).toInt : ℝ) : EReal) = 0
  simp

/-- A table of 10000 columns zero-padded at the high end of both axes to r × 10240 and narrowed to bf16 (the identity on
    the extended reals), read at (i, D). -/
theorem padTab_apply {n r h0 : ℕ} (T : (⟨2, ![n, 10000]⟩ : Shape).Idx → Ideal .f32)
    (hp : (⟨2, ![n, 10000]⟩ : Shape).Pads ![0, 0] ![h0, 240] ![0, 0] ⟨2, ![r, 10240]⟩) (i : Fin r) (D : Fin 10240) :
    ((truncf (F := Ideal) .bf16 (pad (⟨2, ![r, 10240]⟩ : Shape) ![0, 0] ![h0, 240] ![0, 0] T
        (sitofp (F := Ideal) .f32 (constantI S_ 32 0#32)) hp h_S_) bitsLt_bf16_f32 : (⟨2, ![r, 10240]⟩ : Shape).Idx → Ideal .bf16) (ix2 i D) : EReal)
      = padT (r := r) (fun a b => T (ix2 a b)) i D := by
  show pad (⟨2, ![r, 10240]⟩ : Shape) ![0, 0] ![h0, 240] ![0, 0] T (sitofp (F := Ideal) .f32 (constantI S_ 32 0#32)) hp h_S_ (ix2 i D) = _
  refine (pad2_apply T _ hp h_S_ i D).trans ?_
  unfold padT
  by_cases h : i.val < n ∧ D.val < 10000
  · rw [dif_pos h, dif_pos h]
  · rw [dif_neg h, dif_neg h]
    exact zeroPad_apply _

/-- What the host does with the region's output: the sixteen tiles summed from the float word 0, and classes 0..25 kept. -/
def tailOf (P : S16x32x128.Idx → Ideal .f32) : S32x26.Idx → Ideal .f32 :=
  extractStridedSlice S32x26 ![0, 0]
    (Host.reduceAdd (F := Ideal) P (constant (F := Ideal) S_ .f32 0x00000000#32) reducesTo_S16x32x128_S32x128_d0 h_S_)
    slices_S32x128_S32x26_0_0

/-- Entry (b, k) of it is the sum over the sixteen tiles of entry (b, k) of the tile: the initial word is 0. -/
theorem tailOf_apply (P : S16x32x128.Idx → Ideal .f32) (b : Fin 32) (k : Fin 26) :
    tailOf P (ix2 b k) = ∑ d : Fin 16, P (ix3 d b ⟨k.val, by omega⟩) := by
  unfold tailOf
  refine (extractStridedSlice_apply ![0, 0] _ slices_S32x128_S32x26_0_0 (ix2 b k) (ix2 b (⟨k.val, by omega⟩ : Fin 128)) (fun a => ?_)).trans ?_
  · match a with
    | ⟨0, _⟩ => show b.val = 0 + b.val; omega
    | ⟨1, _⟩ => show k.val = 0 + k.val; omega
  · simp only [Host.reduceAdd, Ideal.hostReduceAdd_def]
    rw [Ideal.hostReduceAdd_single reducesTo_S16x32x128_S32x128_d0 (by decide)]
    refine (congrArg (· + _) ?_).trans ((zero_add _).trans (Finset.sum_congr rfl fun d _ => ?_))
    · exact Ideal.ofBits_zero_f32
    · exact congrArg P (funext fun a => Fin.ext (by match a with | ⟨0, _⟩ => rfl | ⟨1, _⟩ => rfl | ⟨2, _⟩ => rfl))

variable (m : (ℓ : Loc nD τ sig) → Buf (Elt Ideal) ℓ) (c : Dev nD)

/-- The level array as the region finds it: the level array of the inputs, padded with the word -1 to 640 features. -/
theorem V5_eq : (V m c main_v5 : S32x640.Idx → BitVec 32)
    = pad S32x640 ![0, 0] ![0, 23] ![0, 0] (lvlArr (m ((c : Thread nD τ).loc main_arg0) : S32x617.Idx → Ideal .f32))
        (constantI S_ 32 4294967295#32) pads_S32x617_S32x640_000_0230 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

/-- THE LEVEL ARRAY the region finds, entry by entry. -/
theorem V_idx (b : Fin 32) (s : Fin 640) : V m c main_v5 (ix2 b s) = padIdx (X m c) b s := by
  rw [V5_eq]
  refine (pad2_apply _ _ pads_S32x617_S32x640_000_0230 h_S_ b s).trans ?_
  unfold padIdx
  by_cases h : s.val < 617
  · rw [dif_pos ⟨b.isLt, h⟩, dif_pos h]
    exact lvlArr_apply _ _
  · rw [dif_neg (fun h' => h h'.2), dif_neg h]
    rfl

/-- The identity table as the region finds it: zero-padded to 640 × 10240 and narrowed. -/
theorem V7_eq : (V m c main_v7 : S640x10240.Idx → Ideal .bf16)
    = truncf (F := Ideal) .bf16 (pad S640x10240 ![0, 0] ![23, 240] ![0, 0] (m ((c : Thread nD τ).loc main_arg1) : S617x10000.Idx → Ideal .f32)
        (sitofp (F := Ideal) .f32 (constantI S_ 32 0#32)) pads_S617x10000_S640x10240_0230_02400 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

/-- THE IDENTITY TABLE the region finds, entry by entry. -/
theorem V_idw (s : Fin 640) (D : Fin 10240) : (V m c main_v7 (ix2 s D) : EReal) = padT (r := 640) (Wt m c) s D := by
  rw [V7_eq]
  exact padTab_apply _ pads_S617x10000_S640x10240_0230_02400 s D

/-- The level table as the region finds it: zero-padded to 128 × 10240 and narrowed. -/
theorem V9_eq : (V m c main_v9 : S128x10240.Idx → Ideal .bf16)
    = truncf (F := Ideal) .bf16 (pad S128x10240 ![0, 0] ![28, 240] ![0, 0] (m ((c : Thread nD τ).loc main_arg2) : S100x10000.Idx → Ideal .f32)
        (sitofp (F := Ideal) .f32 (constantI S_ 32 0#32)) pads_S100x10000_S128x10240_0280_02400 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

/-- THE LEVEL TABLE the region finds, entry by entry. -/
theorem V_lvl (l : Fin 128) (D : Fin 10240) : (V m c main_v9 (ix2 l D) : EReal) = padT (r := 128) (Lt m c) l D := by
  rw [V9_eq]
  exact padTab_apply _ pads_S100x10000_S128x10240_0280_02400 l D

/-- The class table as the region finds it: zero-padded to 128 × 10240 and narrowed. -/
theorem V11_eq : (V m c main_v11 : S128x10240.Idx → Ideal .bf16)
    = truncf (F := Ideal) .bf16 (pad S128x10240 ![0, 0] ![102, 240] ![0, 0] (m ((c : Thread nD τ).loc main_arg3) : S26x10000.Idx → Ideal .f32)
        (sitofp (F := Ideal) .f32 (constantI S_ 32 0#32)) pads_S26x10000_S128x10240_01020_02400 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

/-- THE CLASS TABLE the region finds, entry by entry. -/
theorem V_cls (k : Fin 128) (D : Fin 10240) : (V m c main_v11 (ix2 k D) : EReal) = padT (r := 128) (Ct m c) k D := by
  rw [V11_eq]
  exact padTab_apply _ pads_S26x10000_S128x10240_01020_02400 k D

/-- THE RESULT after the host's last operations, entry by entry, from what the region leaves in its output array:
    the sum of the sixteen tiles' partial logits. -/
theorem tail_apply (P : S16x32x128.Idx → EReal)
    (hP : ((dats m 0 c).arrAt 4 cfg0.N : S16x32x128.Idx → EReal) = P) (b : Fin 32) (k : Fin 26) :
    Pipeline.afterTail₀ cfgs (dats m) 0 (V0 m) [hostOps1] c main_v14 (ix2 b k) = ∑ d : Fin 16, P (ix3 d b ⟨k.val, by omega⟩) := by
  have e : (Pipeline.afterTail₀ cfgs (dats m) 0 (V0 m) [hostOps1] c main_v14 : S32x26.Idx → Ideal .f32) = tailOf P := by
    unfold Pipeline.afterTail₀
    show StableHlo.after hostOps1 _ (Proc.devRef .tc main_v14) = _
    after_results
    have hw : Pipeline.withArrays (cfgs 0).spec c (V0 m c) (fun w => (dats m 0 c).arrAt w (cfgs 0).N) (Proc.devRef .tc main_v12) = P :=
      (Pipeline.withArrays_arr spec0 launch0.win.arr_inj c _ _ 4).trans hP
    rw [hw]
    rfl
  rw [e]
  exact tailOf_apply P b k

end Cert.Proof.HostSide

end
-- ==== Proof.Blocks.lean ====
import proofs.«176997_j36850819399702_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.Proof.Blocks

open Cert.KernelIdeal Cert.KernelIdeal.Gen

variable (m : (ℓ : Loc nD τ sig) → Buf (Elt Ideal) ℓ) (c : Dev nD) (T : Fin 16 → Fin 32 → Fin 128 → Ideal .f32)

/-- The [16, 32, 128] array whose slab t is the table T t · ·. -/
def G : S16x32x128.Idx → Ideal .f32 :=
  fun j => T ⟨(j 0).val, (j 0).isLt⟩ ⟨(j 1).val, (j 1).isLt⟩ ⟨(j 2).val, (j 2).isLt⟩

/-- The output's index map, decided over the grid: point t's block is block (t, 0, 0). -/
theorem idx_facts : ∀ t : Fin cfg0.N, win0_4.index t (0 : Fin 3) = t.val
    ∧ win0_4.index t (1 : Fin 3) = 0
    ∧ win0_4.index t (2 : Fin 3) = 0 :=
  (by decide +kernel : ∀ t : Fin grid0.N, _)

/-- An index of the array is in point t's block iff each coordinate is in the block's range on its axis. -/
theorem mem_blk (t : Fin cfg0.N) (i : S16x32x128.Idx) :
    i ∈ ((cfg0.win 4).blk t).view.set ↔ ∀ a : Fin 3, win0_4.index t a * S1x32x128.size a ≤ (i a).val ∧ (i a).val < win0_4.index t a * S1x32x128.size a + S1x32x128.size a := by
  show i ∈ ((View.whole main_v12).slice (win0_4.rect t)).set ↔ _
  rw [View.set_slice_whole, Rect.mem_set_unit]
  exact Iff.rfl

/-- What point t writes back is block t of the array G T: the block is the slab {t} × 32 × 128, and there the body left T t · ·. -/
theorem flushed_eq
    (hT : ∀ (t : Fin cfg0.N) (b : Fin 32) (k : Fin 128),
      outsAt0 (F := Ideal) m c t (ix3 (0 : Fin 1) b k) = T ⟨t.val, lt_of_lt_of_eq t.isLt N_0⟩ b k)
    (t : Fin cfg0.N) :
    (dats (F := Ideal) m 0 c).flushed 4 t = ((cfg0.win 4).blk t).view.read (Elt Ideal) (G T) := by
  show (cfg0.win 4).cut (grid0.coords t) ((dats (F := Ideal) m 0 c).after 4 t) = _
  rw [after0_4]
  obtain ⟨e0, e1, e2⟩ := idx_facts t
  funext j
  have hj0 : (j 0).val < 1 := (j 0).isLt
  have hj1 : (j 1).val < 32 := (j 1).isLt
  have hj2 : (j 2).val < 128 := (j 2).isLt
  have hx : (cfg0.win 4).xinj (grid0.coords t) j = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show outsAt0 (F := Ideal) m c t ((cfg0.win 4).xinj (grid0.coords t) j) = G T (((cfg0.win 4).blk t).view.emb j)
  refine (congrArg (outsAt0 (F := Ideal) m c t) hx).trans ((hT t ⟨(j 1).val, hj1⟩ ⟨(j 2).val, hj2⟩).trans ?_)
  have h0 : ((((cfg0.win 4).blk t).view.emb j) 0).val = t.val := by
    show win0_4.index t (0 : Fin 3) * 1 + 1 * (j 0).val = t.val
    omega
  have h1 : ((((cfg0.win 4).blk t).view.emb j) 1).val = (j 1).val := by
    show win0_4.index t (1 : Fin 3) * 32 + 1 * (j 1).val = (j 1).val
    omega
  have h2 : ((((cfg0.win 4).blk t).view.emb j) 2).val = (j 2).val := by
    show win0_4.index t (2 : Fin 3) * 128 + 1 * (j 2).val = (j 2).val
    omega
  unfold G
  exact congr (congr (congrArg T (Fin.ext h0.symm)) (Fin.ext h1.symm)) (Fin.ext h2.symm)

/-- The sixteen slabs cover the array: the index j lies in the block of point j 0. -/
theorem cover (i : S16x32x128.Idx) :
    ∃ t : Fin cfg0.N, (cfg0.win 4).flush t = true ∧ i ∈ ((cfg0.win 4).blk t).view.set := by
  have hi0 : (i 0).val < 16 := (i 0).isLt
  have hi1 : (i 1).val < 32 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 128 ≤ (i 2).val ∧ (i 2).val < win0_4.index t (2 : Fin 3) * 128 + 128; omega

/-- THE ARRAY after the run is G T: every point writes its slab back, and the slabs cover the array. -/
theorem final
    (hT : ∀ (t : Fin cfg0.N) (b : Fin 32) (k : Fin 128),
      outsAt0 (F := Ideal) m c t (ix3 (0 : Fin 1) b k) = T ⟨t.val, lt_of_lt_of_eq t.isLt N_0⟩ b k) :
    (dats (F := Ideal) m 0 c).arrAt 4 cfg0.N = G T :=
  (dats (F := Ideal) m 0 c).arrAt_eq_of_cover 4 (G T) (fun t _ => flushed_eq m c T hT t) cover

end Cert.Proof.Blocks

end
-- ==== Proof.RefSide.lean ====
import proofs.«176997_j36850819399702_2_alg».proof.Proof.Gen.ReferenceIdeal.Read
import proofs.«176997_j36850819399702_2_alg».proof.Proof.Spec

noncomputable section

open scoped BigOperators

namespace Cert.Proof.RefSide

open Cert.ReferenceIdeal Cert.ReferenceIdeal.Gen Cert.ReferenceIdeal.Read Cert.Proof.Spec Idealize.ShloMosaic Idealize.ShloMosaic.ValueIdx

/-- The gather of rows of a 100 × 10000 table at a 32 × 617 × 1 array of start indices, read at (b, s, D): the table at
    row idx(b, s, 0), read signed and clamped into [0, 99], and column D. -/
theorem gather_apply {α : Type} {w : Nat} (x : S100x10000.Idx → α) (idx : IVec S32x617x1 w) (b : Fin 32) (s : Fin 617) (D : Fin 10000) :
    Host.gather gather_S100x10000_S32x617x1_S32x617x10000_2_0_n_n_0_2_110000 x idx (ix3 b s D)
      = x (ix2 (⟨min (idx (ix3 b s (0 : Fin 1))).toInt.toNat 99, by omega⟩ : Fin 100) D) := by
  unfold Host.gather
  refine congrArg x (funext fun a => Fin.ext ?_)
  match a with
  | ⟨0, _⟩ =>
    show gather_S100x10000_S32x617x1_S32x617x10000_2_0_n_n_0_2_110000.start (ix3 b s D) idx 0
        + gather_S100x10000_S32x617x1_S32x617x10000_2_0_n_n_0_2_110000.batchCoord (ix3 b s D) 0
        + gather_S100x10000_S32x617x1_S32x617x10000_2_0_n_n_0_2_110000.offCoord (ix3 b s D) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x10000_S32x617x1_S32x617x10000_2_0_n_n_0_2_110000.startIndexMap from List.mem_singleton.mpr rfl)]
    have hsi : gather_S100x10000_S32x617x1_S32x617x10000_2_0_n_n_0_2_110000.siIdx (ix3 b s D)
        ⟨List.idxOf (0 : Fin 2) gather_S100x10000_S32x617x1_S32x617x10000_2_0_n_n_0_2_110000.startIndexMap,
          List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S100x10000_S32x617x1_S32x617x10000_2_0_n_n_0_2_110000.start (ix3 b s D) idx 1
        + gather_S100x10000_S32x617x1_S32x617x10000_2_0_n_n_0_2_110000.batchCoord (ix3 b s D) 1
        + gather_S100x10000_S32x617x1_S32x617x10000_2_0_n_n_0_2_110000.offCoord (ix3 b s D) 1 = D.val
    rw [GatherDims.batchCoord_eq_zero _ _ _ List.not_mem_nil]
    unfold GatherDims.start
    rw [dif_neg (show ¬ (1 : Fin 2) ∈ gather_S100x10000_S32x617x1_S32x617x10000_2_0_n_n_0_2_110000.startIndexMap by decide)]
    simp only [Nat.add_zero, Nat.zero_add]
    unfold GatherDims.offCoord
    rw [dif_pos (show (1 : Fin 2) ∈ gather_S100x10000_S32x617x1_S32x617x10000_2_0_n_n_0_2_110000.sKept by decide)]
    rfl

/-! ## Level words in [0, 99] -/

/-- A 32-bit word that is at most 99 read unsigned is the same number read signed. -/
theorem toInt_of_le {w : BitVec 32} (h : w.toNat ≤ 99) : w.toInt = (w.toNat : Int) := by
  rw [BitVec.toInt_eq_toNat_cond, if_pos (by omega)]

/-- On a word in [0, 99] the "negative index wraps around" select (w < 0 ? w + 100 : w) returns the word itself. -/
theorem wrap_eq {w : BitVec 32} (h : w.toNat ≤ 99) :
    Scalar.select (IntOp.cmpi .slt w 0#32) (IntOp.addi w 100#32) w = w := by
  have hs : w.slt 0#32 = false := by
    simp only [BitVec.slt, toInt_of_le h]
    simp
  show Scalar.select (BitVec.ofBool (w.slt 0#32)) _ _ = _
  rw [hs]
  exact select_zero _ _

/-- On a word in [0, 99] the gather's clamp (signed reading capped at 99) is the table row of the word. -/
theorem clamp_eq {w : BitVec 32} (h : w.toNat ≤ 99) (hlt : min w.toInt.toNat 99 < 100) :
    (⟨min w.toInt.toNat 99, hlt⟩ : Fin 100) = lvlRow w := by
  refine Fin.ext ?_
  show min w.toInt.toNat 99 = min w.toNat 99
  rw [toInt_of_le h, Int.toNat_natCast]

/-! ## The composed index functions of the reference's layout operations, by coordinates -/

theorem idx10_eq (b : Fin 32) (s : Fin 617) : idx_main_v10 (ix3 b s (0 : Fin 1)) = ix2 b s :=
  funext fun a => Fin.ext (by match a with | ⟨0, _⟩ => rfl | ⟨1, _⟩ => rfl)

theorem idx13_eq (b : Fin 32) (s : Fin 617) (D : Fin 10000) : idx_main_v12 (idx_main_v13 (ix3 b s D)) = ix2 s D :=
  funext fun a => Fin.ext (by match a with | ⟨0, _⟩ => rfl | ⟨1, _⟩ => rfl)

theorem idx15_eq (b : Fin 32) (D : Fin 10000) (s : Fin 617) : idx_main_v15 (ix2 b D) s = ix3 b s D :=
  funext fun a => Fin.ext (by match a with | ⟨0, _⟩ => rfl | ⟨1, _⟩ => rfl | ⟨2, _⟩ => rfl)

theorem lidx19_eq (b : Fin 32) (k : Fin 26) (D : Fin 10000) : lidx_main_v19 (ix2 b k) D = ix2 b D :=
  funext fun a => Fin.ext (by match a with | ⟨0, _⟩ => rfl | ⟨1, _⟩ => rfl)

theorem ridx19_eq (b : Fin 32) (k : Fin 26) (D : Fin 10000) : ridx_main_v19 (ix2 b k) D = ix2 k D :=
  funext fun a => Fin.ext (by match a with | ⟨0, _⟩ => rfl | ⟨1, _⟩ => rfl)

/-! ## The reference, stage by stage -/

/-- The converted, clipped, rounded, scaled input entry is its level word: the same operations in the same order. -/
theorem v4_eq (x0 : (⟨S32x617, .f32⟩ : BufTy).Contents (Elt Ideal)) (b : Fin 32) (s : Fin 617) :
    val_main_v4 (F := Ideal) x0 (ix2 b s) = level (x0 (ix2 b s)) := by
  rw [val_main_v4_apply, val_main_v3_apply, val_main_call1_v4_apply, val_main_call1_v3_apply, val_main_c_0_apply,
    val_main_call1_v2_apply, val_main_call1_v1_apply, val_main_call1_v0_apply, val_main_c_apply, val_main_v2_apply,
    val_main_v1_apply, val_main_v0_apply, val_main_cst_apply]
  rfl

/-- A level word is in [0, 99], so the wrap-around select leaves it unchanged. -/
theorem v9_eq (hlev : ∀ x : Ideal .f32, (level x).toNat ≤ 99) (x0 : (⟨S32x617, .f32⟩ : BufTy).Contents (Elt Ideal)) (b : Fin 32) (s : Fin 617) :
    val_main_v9 (F := Ideal) x0 (ix2 b s) = level (x0 (ix2 b s)) := by
  rw [val_main_v9_apply, val_main_v6_apply, val_main_v8_apply, val_main_v5_apply, val_main_c_1_apply, val_main_v7_apply,
    val_main_c_2_apply, v4_eq]
  exact wrap_eq (hlev _)

/-- The gathered entry at (b, s, D) is the level table at the row of the level word of x(b, s) and column D. -/
theorem v11_eq (hlev : ∀ x : Ideal .f32, (level x).toNat ≤ 99) (x0 : (⟨S32x617, .f32⟩ : BufTy).Contents (Elt Ideal)) (x2 : (⟨S100x10000, .f32⟩ : BufTy).Contents (Elt Ideal)) (b : Fin 32) (s : Fin 617) (D : Fin 10000) :
    val_main_v11 (F := Ideal) x0 x2 (ix3 b s D) = x2 (ix2 (lvlRow (level (x0 (ix2 b s)))) D) := by
  unfold val_main_v11
  refine (gather_apply x2 (val_main_v10 (F := Ideal) x0) b s D).trans ?_
  have e : val_main_v10 (F := Ideal) x0 (ix3 b s (0 : Fin 1)) = level (x0 (ix2 b s)) := by
    rw [val_main_v10_apply, idx10_eq, v9_eq hlev]
  refine congrArg (fun r : Fin 100 => x2 (ix2 r D)) (Fin.ext ?_)
  show min (val_main_v10 (F := Ideal) x0 (ix3 b s (0 : Fin 1))).toInt.toNat 99 = min (level (x0 (ix2 b s))).toNat 99
  rw [e, toInt_of_le (hlev _), Int.toNat_natCast]

/-- The bound sum over the 617 features: the reduction starts from the zero word, which is 0. -/
theorem v15_eq (hlev : ∀ x : Ideal .f32, (level x).toNat ≤ 99) (x0 : (⟨S32x617, .f32⟩ : BufTy).Contents (Elt Ideal)) (x1 : (⟨S617x10000, .f32⟩ : BufTy).Contents (Elt Ideal)) (x2 : (⟨S100x10000, .f32⟩ : BufTy).Contents (Elt Ideal)) (b : Fin 32) (D : Fin 10000) :
    val_main_v15 (F := Ideal) x0 x1 x2 (ix2 b D)
      = ∑ s : Fin 617, x1 (ix2 s D) * x2 (ix2 (lvlRow (level (x0 (ix2 b s)))) D) := by
  rw [val_main_v15_apply, val_main_cst_3_apply]
  rw [show (FloatOps.ofBits (F := Ideal) .f32 0x00000000#32) = 0 from Ideal.ofBits_zero_f32, zero_add]
  refine Finset.sum_congr rfl fun s _ => ?_
  rw [idx15_eq, val_main_v14_apply, val_main_v13_apply, val_main_v12_apply, idx13_eq, v11_eq hlev]
  rfl

/-- The compare-and-select against the broadcast words 0, 1, -1 is the sign pattern of the bound sum. -/
theorem v18_eq (hlev : ∀ x : Ideal .f32, (level x).toNat ≤ 99) (x0 : (⟨S32x617, .f32⟩ : BufTy).Contents (Elt Ideal)) (x1 : (⟨S617x10000, .f32⟩ : BufTy).Contents (Elt Ideal)) (x2 : (⟨S100x10000, .f32⟩ : BufTy).Contents (Elt Ideal)) (b : Fin 32) (D : Fin 10000) :
    val_main_v18 (F := Ideal) x0 x1 x2 (ix2 b D)
      = enc (∑ s : Fin 617, x1 (ix2 s D) * x2 (ix2 (lvlRow (level (x0 (ix2 b s)))) D)) := by
  rw [val_main_v18_apply, val_main_v17_apply, val_main_v16_apply, val_main_cst_4_apply, val_main_call2_v0_apply,
    val_main_cst_5_apply, val_main_call2_v1_apply, val_main_cst_6_apply, v15_eq hlev]
  rfl

/-- THE REFERENCE PROGRAM'S RESULT at (b, k) is the reference formula of the four argument arrays. -/
theorem ref_apply (hlev : ∀ x : Ideal .f32, (level x).toNat ≤ 99)
    (x0 : (⟨S32x617, .f32⟩ : BufTy).Contents (Elt Ideal)) (x1 : (⟨S617x10000, .f32⟩ : BufTy).Contents (Elt Ideal)) (x2 : (⟨S100x10000, .f32⟩ : BufTy).Contents (Elt Ideal)) (x3 : (⟨S26x10000, .f32⟩ : BufTy).Contents (Elt Ideal)) (b : Fin 32) (k : Fin 26) :
    val_main_v19 (F := Ideal) x0 x1 x2 x3 (ix2 b k)
      = refLogit (fun b s => x0 (ix2 b s)) (fun s D => x1 (ix2 s D)) (fun l D => x2 (ix2 l D)) (fun k D => x3 (ix2 k D)) b k := by
  rw [val_main_v19_apply]
  unfold refLogit
  refine Finset.sum_congr rfl fun D _ => ?_
  rw [lidx19_eq, ridx19_eq, v18_eq hlev]

end Cert.Proof.RefSide

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Bridge.lean ====
import proofs.«176997_j36850819399702_2_alg».proof.Proof.Spec
import proofs.«176997_j36850819399702_2_alg».proof.Proof.LibSums
import Idealize.ShloMosaic.PureOps.Ideal

noncomputable section

open scoped BigOperators

namespace Cert.Proof.Bridge

open Idealize.ShloMosaic
open Cert.Proof.Spec

/-! ## The level word lies in [0, 99] -/

/-- An extended real in [0, 99] is sent by the signed 32-bit conversion to a word whose unsigned reading is at most 99:
it is a real there, its floor is an integer in [0, 99], and such an integer is its own residue mod 2³². -/
theorem fptosi_toNat_le (y : EReal) (h0 : 0 ≤ y) (h99 : y ≤ ((99 : ℝ) : EReal)) :
    (Ideal.fptosi 32 y).toNat ≤ 99 := by
  induction y using EReal.rec with
  | bot => exact absurd h0 (by simp)
  | top => exact absurd h99 (by simp)
  | coe r =>
    have hr0 : (0 : ℝ) ≤ r := by exact_mod_cast h0
    have hr99 : r ≤ 99 := by exact_mod_cast h99
    have hf0 : (0 : ℤ) ≤ ⌊r⌋ := Int.floor_nonneg.mpr hr0
    have hf99 : ⌊r⌋ ≤ 99 := by
      have : ⌊r⌋ ≤ ⌊(99 : ℝ)⌋ := Int.floor_le_floor hr99
      simpa using this
    rw [Ideal.fptosi, Ideal.toIntClamped_coe, if_pos hr0, BitVec.toNat_ofInt]
    omega

/-- The level word is at most 99: the converted value is min 99 (max 0 y), which lies in [0, 99] for every extended real y. -/
theorem level_le (x : Ideal .f32) : (level x).toNat ≤ 99 := by
  have h99 : FloatOps.sitofp (F := Ideal) .f32 (99#32) = ((99 : ℝ) : EReal) := by
    show ((((99#32 : BitVec 32).toInt : ℤ) : ℝ) : EReal) = _
    have : (99#32 : BitVec 32).toInt = 99 := by decide
    rw [this]; norm_num
  have h0 : FloatOps.sitofp (F := Ideal) .f32 (0#32) = (0 : EReal) := by
    show ((((0#32 : BitVec 32).toInt : ℤ) : ℝ) : EReal) = _
    have : (0#32 : BitVec 32).toInt = 0 := by decide
    rw [this]; norm_num
  unfold level
  rw [h99, h0]
  show (Ideal.fptosi 32 (min ((99 : ℝ) : EReal) (max 0 _))).toNat ≤ 99
  apply fptosi_toNat_le
  · exact le_min (by exact_mod_cast (by norm_num : (0 : ℝ) ≤ 99)) (le_max_left _ _)
  · exact min_le_left _ _

/-! ## Sums over tiles and sums with a vanishing tail, for index sets Fin N -/

section Sums
variable {M : Type} [AddCommMonoid M]

/-- A sum over a tiles of b positions each, the positions numbered k·b + n, is the sum over all a·b = N positions. -/
theorem sum_fin_tiles (N a b : ℕ) (hN : a * b = N) (g : Fin N → M) (idx : Fin a → Fin b → Fin N)
    (hidx : ∀ k n, (idx k n).val = k.val * b + n.val) :
    ∑ k : Fin a, ∑ n : Fin b, g (idx k n) = ∑ v : Fin N, g v := by
  subst hN
  let f : ℕ → M := fun n => if h : n < a * b then g ⟨n, h⟩ else 0
  have hf : ∀ k n, g (idx k n) = f (k.val * b + n.val) := by
    intro k n
    have hlt : k.val * b + n.val < a * b := by rw [← hidx]; exact (idx k n).isLt
    show g (idx k n) = if h : k.val * b + n.val < a * b then g ⟨k.val * b + n.val, h⟩ else 0
    rw [dif_pos hlt]
    exact congrArg g (Fin.ext (hidx k n))
  calc ∑ k : Fin a, ∑ n : Fin b, g (idx k n)
      = ∑ k : Fin a, ∑ n : Fin b, f (k.val * b + n.val) :=
        Finset.sum_congr rfl (fun k _ => Finset.sum_congr rfl (fun n _ => hf k n))
    _ = ∑ k ∈ Finset.range a, ∑ n : Fin b, f (k * b + n.val) :=
        (Finset.sum_range (fun k => ∑ n : Fin b, f (k * b + n.val))).symm
    _ = ∑ v ∈ Finset.range (a * b), f v := Cert.Sums.sum_tiles a b f
    _ = ∑ v : Fin (a * b), f v.val := Finset.sum_range f
    _ = ∑ v : Fin (a * b), g v := by
        refine Finset.sum_congr rfl (fun v _ => ?_)
        show (if h : v.val < a * b then g ⟨v.val, h⟩ else 0) = g v
        rw [dif_pos v.isLt]

/-- A sum over Fin N whose terms vanish from position n on is the sum of its first n terms. -/
theorem sum_fin_tail_zero (N n : ℕ) (hn : n ≤ N) (g : Fin N → M) (hz : ∀ v : Fin N, n ≤ v.val → g v = 0) :
    ∑ v : Fin N, g v = ∑ v : Fin n, g ⟨v.val, lt_of_lt_of_le v.isLt hn⟩ := by
  obtain ⟨e, rfl⟩ := Nat.exists_eq_add_of_le hn
  let f : ℕ → M := fun m => if h : m < n + e then g ⟨m, h⟩ else 0
  have hfz : ∀ x, f (n + x) = 0 := by
    intro x
    show (if h : n + x < n + e then g ⟨n + x, h⟩ else 0) = 0
    by_cases h : n + x < n + e
    · rw [dif_pos h]; exact hz _ (Nat.le_add_right n x)
    · rw [dif_neg h]
  calc ∑ v : Fin (n + e), g v
      = ∑ v : Fin (n + e), f v.val := by
        refine Finset.sum_congr rfl (fun v _ => ?_)
        show g v = if h : v.val < n + e then g ⟨v.val, h⟩ else 0
        rw [dif_pos v.isLt]
    _ = ∑ v ∈ Finset.range (n + e), f v := (Finset.sum_range f).symm
    _ = ∑ v : Fin n, f v.val := Cert.Sums.sum_range_of_tail_zero n e f hfz
    _ = ∑ v : Fin n, g ⟨v.val, lt_of_lt_of_le v.isLt hn⟩ := by
        refine Finset.sum_congr rfl (fun v _ => ?_)
        show (if h : v.val < n + e then g ⟨v.val, h⟩ else 0) = _
        rw [dif_pos (lt_of_lt_of_le v.isLt hn)]

end Sums

/-! ## The one-hot product selects a row -/

/-- For a word w below 128, the one-hot row of w over 128 levels has its single 1 at position w, so the product with any
column g is g(w): the other terms are 0·g(l) = 0 and the remaining one is 1·g(w) = g(w), on the extended reals too. -/
theorem onehot_sum (w : BitVec 32) (hw : w.toNat < 128) (g : Fin 128 → Ideal .f32) :
    ∑ l : Fin 128, onehot w l * g l = g ⟨w.toNat, hw⟩ := by
  rw [Finset.sum_eq_single (⟨w.toNat, hw⟩ : Fin 128)]
  · have h : w = BitVec.ofNat 32 w.toNat := by
      apply BitVec.eq_of_toNat_eq
      rw [BitVec.toNat_ofNat, Nat.mod_eq_of_lt w.isLt]
    show (if w = BitVec.ofNat 32 w.toNat then (1 : EReal) else 0) * _ = _
    rw [if_pos h, one_mul]
  · intro l _ hl
    have h : ¬ w = BitVec.ofNat 32 l.val := by
      intro h
      apply hl
      apply Fin.ext
      show l.val = w.toNat
      have hl128 := l.isLt
      rw [h, BitVec.toNat_ofNat]
      exact (Nat.mod_eq_of_lt (by omega)).symm
    show (if w = BitVec.ofNat 32 l.val then (1 : EReal) else 0) * _ = 0
    rw [if_neg h, zero_mul]
  · intro h
    exact absurd (Finset.mem_univ _) h

/-- At a real feature s < 617 and a real dimension D < 10000 the selected entry of the padded level table is the
reference's gathered entry L(level x(b,s), D): the level word is at most 99, so it is its own row number. -/
theorem picked_eq (x : Fin 32 → Fin 617 → Ideal .f32) (L : Fin 100 → Fin 10000 → Ideal .f32) (b : Fin 32)
    (s : Fin 617) (D : Fin 10000) (hs : s.val < 640) (hD : D.val < 10240) :
    picked x L b ⟨s.val, hs⟩ ⟨D.val, hD⟩ = L (lvlRow (level (x b s))) D := by
  have hl := level_le (x b s)
  have hp : padIdx x b ⟨s.val, hs⟩ = level (x b s) := by
    unfold padIdx
    rw [dif_pos s.isLt]
  unfold picked
  rw [hp, onehot_sum _ (by omega)]
  unfold padT
  rw [dif_pos ⟨(by show (level (x b s)).toNat < 100; omega), D.isLt⟩]
  have hrow : (⟨(level (x b s)).toNat, by omega⟩ : Fin 100) = lvlRow (level (x b s)) := by
    apply Fin.ext
    show (level (x b s)).toNat = min (level (x b s)).toNat 99
    omega
  exact congrArg (fun r => L r D) hrow

/-! ## The two formulas agree -/

/-- The bound sum accumulated over the five tiles is, at a real dimension D < 10000, the reference's sum over the 617
features: the five tiles make up the 640 padded features, and the terms of the 23 padding features vanish because the
padded identity table is 0 there. -/
theorem acc_eq (x : Fin 32 → Fin 617 → Ideal .f32) (W : Fin 617 → Fin 10000 → Ideal .f32)
    (L : Fin 100 → Fin 10000 → Ideal .f32) (b : Fin 32) (D : Fin 10000) (hD : D.val < 10240) :
    acc x W L b ⟨D.val, hD⟩ = ∑ s : Fin 617, W s D * L (lvlRow (level (x b s))) D := by
  have h5 : acc x W L b ⟨D.val, hD⟩ = ∑ k : Fin 5, part x W L b ⟨D.val, hD⟩ k := by
    unfold acc
    rw [Fin.sum_univ_five, zero_add]
  rw [h5]
  unfold part
  refine (sum_fin_tiles 640 5 128 (by norm_num)
    (fun s => padT (r := 640) W s ⟨D.val, hD⟩ * picked x L b s ⟨D.val, hD⟩) feat (fun _ _ => rfl)).trans ?_
  refine (sum_fin_tail_zero 640 617 (by norm_num) _ ?_).trans ?_
  · intro v hv
    show padT (r := 640) W v ⟨D.val, hD⟩ * _ = 0
    have hz : padT (r := 640) W v ⟨D.val, hD⟩ = 0 := by
      unfold padT
      rw [dif_neg (fun h => absurd h.1 (by omega))]
    rw [hz, zero_mul]
  · refine Finset.sum_congr rfl (fun s _ => ?_)
    show padT (r := 640) W ⟨s.val, _⟩ ⟨D.val, hD⟩ * picked x L b ⟨s.val, _⟩ ⟨D.val, hD⟩ = _
    rw [picked_eq]
    have hw : padT (r := 640) W ⟨s.val, lt_of_lt_of_le s.isLt (by norm_num)⟩ ⟨D.val, hD⟩ = W s D := by
      unfold padT
      rw [dif_pos ⟨s.isLt, D.isLt⟩]
    rw [hw]

/-- THE BRIDGE: the kernel's tiled, padded formula equals the reference's formula, for all extended-real inputs. The sixteen
tiles of 640 dimensions make up the 10240 padded dimensions; the terms of the 240 padding dimensions vanish because the
padded class table is 0 there; at a real dimension the accumulated bound sum is the reference's. -/
theorem ker_eq_ref (x : Fin 32 → Fin 617 → Ideal .f32) (W : Fin 617 → Fin 10000 → Ideal .f32)
    (L : Fin 100 → Fin 10000 → Ideal .f32) (C : Fin 26 → Fin 10000 → Ideal .f32) (b : Fin 32) (c : Fin 26) :
    kerLogit x W L C b c = refLogit x W L C b c := by
  have hc : c.val < 128 := lt_of_lt_of_le c.isLt (by norm_num)
  unfold kerLogit refLogit tileLogit
  refine (sum_fin_tiles 10240 16 640 (by norm_num)
    (fun D => enc (acc x W L b D) * padT (r := 128) C ⟨c.val, hc⟩ D) dim (fun _ _ => rfl)).trans ?_
  refine (sum_fin_tail_zero 10240 10000 (by norm_num) _ ?_).trans ?_
  · intro v hv
    show enc (acc x W L b v) * padT (r := 128) C ⟨c.val, hc⟩ v = 0
    have hz : padT (r := 128) C ⟨c.val, hc⟩ v = 0 := by
      unfold padT
      rw [dif_neg (fun h => absurd h.2 (by omega))]
    rw [hz, mul_zero]
  · refine Finset.sum_congr rfl (fun D _ => ?_)
    show enc (acc x W L b ⟨D.val, _⟩) * padT (r := 128) C ⟨c.val, hc⟩ ⟨D.val, _⟩ = _
    rw [acc_eq]
    have hcD : padT (r := 128) C ⟨c.val, hc⟩ ⟨D.val, lt_of_lt_of_le D.isLt (by norm_num)⟩ = C c D := by
      unfold padT
      rw [dif_pos ⟨c.isLt, D.isLt⟩]
    rw [hcD]

end Cert.Proof.Bridge

end
-- ==== Proof.Result.lean ====
/-
  The common result of the two programs on one core, and that the reference computes it.

  The result array (32 × 26) holds kerLogit of the argument arrays; the reference's composed term read at (b,k)
  is refLogit of them, and the two formulas agree.
-/
import proofs.«176997_j36850819399702_2_alg».proof.Proof.Args
import proofs.«176997_j36850819399702_2_alg».proof.Proof.Spec
import proofs.«176997_j36850819399702_2_alg».proof.Proof.RefSide
import proofs.«176997_j36850819399702_2_alg».proof.Proof.Bridge

noncomputable section

namespace Cert.Proof.Result

open Cert.Proof.Spec Cert.Proof.Args
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

/-- The result array: entry (b,k) is the kernel's formula of the four argument arrays. -/
def result : Cert.KernelIdeal.S32x26.Idx → Ideal .f32 :=
  fun j => kerLogit (X m c) (Wt m c) (Lt m c) (Ct m c) (j 0) (j 1)

/-- The reference's result term of the same argument arrays is that array. -/
theorem ref_eq :
    Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = result m c := by
  funext j
  obtain ⟨b, k, rfl⟩ : ∃ (b : Fin 32) (k : Fin 26), j = ix2 b k := ⟨j 0, j 1, eq_ix2 j⟩
  rw [Cert.Proof.RefSide.ref_apply Cert.Proof.Bridge.level_le]
  exact (Cert.Proof.Bridge.ker_eq_ref _ _ _ _ b k).symm

end Cert.Proof.Result

end
-- ==== Proof.KernelRun.lean ====
/-
  The idealized kernel program's run, read.

  Grid point t stores tile t's partial logits (one body run on the blocks the point is given); the sixteen blocks
  tile the region's 16 × 32 × 128 output array; the host then sums the sixteen tiles and keeps classes 0..25.
  So the result array holds kerLogit of the argument arrays, and the arguments end unchanged.
-/
import proofs.«176997_j36850819399702_2_alg».proof.Proof.Tile
import proofs.«176997_j36850819399702_2_alg».proof.Proof.BlockReads
import proofs.«176997_j36850819399702_2_alg».proof.Proof.HostSide
import proofs.«176997_j36850819399702_2_alg».proof.Proof.Blocks
import proofs.«176997_j36850819399702_2_alg».proof.Proof.Result

set_option maxRecDepth 16384

noncomputable section

open scoped BigOperators

namespace Cert.Proof.KernelRun

open Cert.KernelIdeal Cert.KernelIdeal.Gen Cert.Proof.Spec Cert.Proof.Args
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The grid has sixteen points. -/
theorem lt16 (t : Fin cfg0.N) : t.val < 16 := Nat.lt_of_lt_of_eq (t.isLt : t.val < grid0.N) N_0

/-- Point t's output block is tile t's partial logit. -/
theorem outsAt_eq (c : Dev nD) (t : Fin cfg0.N) (b : Fin 32) (k : Fin 128) :
    outsAt0 (F := Ideal) m c t (ix3 (0 : Fin 1) b k)
      = tileLogit (X m c) (Wt m c) (Lt m c) (Ct m c) ⟨t.val, lt16 t⟩ b k := by
  unfold outsAt0
  refine (congrFun (Cert.Proof.Body.out_eq c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t)) _).trans ?_
  exact Cert.Proof.Tile.block_formula (X m c) (Wt m c) (Lt m c) (Ct m c) ⟨t.val, lt16 t⟩
    (iblk m c 0 t) (iblk m c 1 t) (iblk m c 2 t) (iblk m c 3 t)
    (fun b s => (Cert.Proof.BlockReads.iblk0_apply m c t b s).trans (Cert.Proof.HostSide.V_idx m c b s))
    (fun s e => (Cert.Proof.BlockReads.iblk1_apply m c t s e (dim ⟨t.val, lt16 t⟩ e) rfl).trans (Cert.Proof.HostSide.V_idw m c s _))
    (fun l e => (Cert.Proof.BlockReads.iblk2_apply m c t l e (dim ⟨t.val, lt16 t⟩ e) rfl).trans (Cert.Proof.HostSide.V_lvl m c l _))
    (fun k e => (Cert.Proof.BlockReads.iblk3_apply m c t k e (dim ⟨t.val, lt16 t⟩ e) rfl).trans (Cert.Proof.HostSide.V_cls m c k _))
    b k

/-- The region's output array after the run: entry (d,b,k) is tile d's partial logit. -/
theorem final (c : Dev nD) :
    ((dats (F := Ideal) m 0 c).arrAt 4 cfg0.N : S16x32x128.Idx → EReal)
      = Cert.Proof.Blocks.G (fun d b k => tileLogit (X m c) (Wt m c) (Lt m c) (Ct m c) d b k) :=
  Cert.Proof.Blocks.final m c _ (fun t b k => outsAt_eq m c t b k)

/-- The result buffer after the host's last operations is the result array. -/
theorem result_eq (c : Dev nD) :
    Pipeline.afterTail₀ cfgs (dats m) 0 (V0 m) [hostOps1] c main_v14 = Cert.Proof.Result.result m c := by
  funext j
  obtain ⟨b, k, rfl⟩ : ∃ (b : Fin 32) (k : Fin 26), j = ix2 b k := ⟨j 0, j 1, eq_ix2 j⟩
  refine (Cert.Proof.HostSide.tail_apply m c _ (final m c) b k).trans ?_
  rfl

/-- Every weakly fair execution of the idealized kernel program terminates with the result buffer at the result
    array and the four arguments unchanged. -/
theorem run : θ_run defs (onTc (τ := τ) (main (F := Ideal))) ⟨m, fun _ => 0, ρ⟩ (fun r => ∀ c : Dev nD,
      r.2.mem ((c.tc : Thread nD τ).loc main_v14) = Cert.Proof.Result.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Proof.KernelRun

end
-- ==== Proof.lean ====
/-
  Sign-quantised hyperdimensional classification: a tiled one-hot kernel against its gather reference.

  Both programs turn every input entry x(b,s) into a level word (x·99 rounded to nearest, clipped to [0,99]),
  bind row s of the identity table with the level table's row for that word, sum over the 617 features, keep
  the sign pattern and contract it with the class table over the 10000 dimensions.  The reference gathers the
  level row; the kernel selects it by a one-hot product on zero-padded tables, sums the features in five tiles
  of 128 and the dimensions in sixteen tiles of 640, and adds the sixteen partial logits at the end.  On the
  extended reals the two agree entry by entry: a one-hot sum is the selected row because the level word lies
  in [0,99]; padded features and dimensions contribute products with a zero factor; sums of tiles are the
  whole sum because addition is commutative and associative.  No finiteness of the inputs is used.

  The frames of the two kernel programs are their generated runs; the reference's frame is its run with the
  result dropped; the one rewrite of the idealization (a narrowing to bf16 followed by a widening back, which is
  the identity on the extended reals) is its rule's statement.
-/
import proofs.«176997_j36850819399702_2_alg».proof.Defs
import proofs.«176997_j36850819399702_2_alg».proof.Proof.Gen.Kernel
import proofs.«176997_j36850819399702_2_alg».proof.Proof.Gen.Kernel.Skeleton
import proofs.«176997_j36850819399702_2_alg».proof.Proof.Gen.Kernel.Loops
import proofs.«176997_j36850819399702_2_alg».proof.Proof.Gen.Kernel.Launch
import proofs.«176997_j36850819399702_2_alg».proof.Proof.Gen.Kernel.Points
import proofs.«176997_j36850819399702_2_alg».proof.Proof.Gen.Kernel.Frame
import proofs.«176997_j36850819399702_2_alg».proof.Proof.Gen.KernelIdeal
import proofs.«176997_j36850819399702_2_alg».proof.Proof.Gen.KernelIdeal.Skeleton
import proofs.«176997_j36850819399702_2_alg».proof.Proof.Gen.KernelIdeal.Loops
import proofs.«176997_j36850819399702_2_alg».proof.Proof.Gen.KernelIdeal.Launch
import proofs.«176997_j36850819399702_2_alg».proof.Proof.Gen.KernelIdeal.Points
import proofs.«176997_j36850819399702_2_alg».proof.Proof.Gen.KernelIdeal.Frame
import proofs.«176997_j36850819399702_2_alg».proof.Proof.Gen.ReferenceIdeal
import proofs.«176997_j36850819399702_2_alg».proof.Proof.Gen.ReferenceIdeal.Run
import proofs.«176997_j36850819399702_2_alg».proof.Proof.Gen.ReferenceIdeal.Read
import proofs.«176997_j36850819399702_2_alg».proof.Proof.Gen.Pre_finite_inputs
import proofs.«176997_j36850819399702_2_alg».proof.Proof.KernelRun
import proofs.«176997_j36850819399702_2_alg».proof.Proof.Result
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing a 32 × 640 array to bf16 and widening it back is the identity on the extended reals. -/
theorem preserves : Cert.preserves_Kernel_KernelIdeal := IdealRules.truncf_extf.statement _ .f32 .bf16

/-- From memories that agree on the arguments the two idealized programs end with the same result array. -/
theorem algebraic : Cert.algebraic_KernelIdeal_ReferenceIdeal := by
  intro m ρ m' ρ' _ hagree
  refine ⟨fun c => Cert.Proof.Result.result m c, Cert.Proof.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v19_eq _ _ _ _).trans (Cert.Proof.Result.ref_eq m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
